-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg8 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_cst_20 : FVec F S_ .f32 := constant S_ .f32 0x00000000#32
  let main_v54 : FVec F S128 .f32 := broadcastInDim S128 ![] bcast_S_S128 main_cst_20
  let main_v55 : IVec S128 1 := cmpf .oge main_arg8 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v53 main_v56
  main_v57

def fn_part2 {F : FTy → Type} [FloatOps F] (main_arg8 : FVec F S128 .f32) (main_arg9 : FVec F S64x128 .f32) (main_arg10 : FVec F S64 .f32) (main_arg11 : FVec F S64x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg8 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩

abbrev nBuf : Space → Nat
  | .hbm => 85
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S128x64, .f32⟩
  | .hbm, ⟨72, _⟩ => ⟨S_, .i32⟩
  | .hbm, ⟨73, _⟩ => ⟨S_, .f32⟩
  | .hbm, ⟨74, _⟩ => ⟨S128x128, .f32⟩
  | .hbm, ⟨75, _⟩ => ⟨S128x64, .f32⟩
  | .hbm, ⟨76, _⟩ => ⟨S_, .i32⟩
  | .hbm, ⟨77, _⟩ => ⟨S_, .f32⟩
  | .hbm, ⟨78, _⟩ => ⟨S128x128, .f32⟩
  | .hbm, ⟨79, _⟩ => ⟨S1x64, .f32⟩
  | .hbm, ⟨80, _⟩ => ⟨S_, .i32⟩
  | .hbm, ⟨81, _⟩ => ⟨S_, .f32⟩
  | .hbm, ⟨82, _⟩ => ⟨S1x128, .f32⟩
  | .hbm, ⟨83, _⟩ => ⟨S100000x128, .f32⟩
  | .hbm, ⟨84, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_call2_v0 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_call3_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S128 : S_.BroadcastsInDim S128 (![] : Fin 0 → Fin S128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  pads_S128x64_S128x128_000_0640 : S128x64.Pads (![0, 0] : Fin 2 → Nat) ![0, 64] ![0, 0] S128x128
  h_S_ : 0 < S_.numel
  shapeCasts_S64_S1x64 : S64.ShapeCasts S1x64
  pads_S1x64_S1x128_000_0640 : S1x64.Pads (![0, 0] : Fin 2 → Nat) ![0, 64] ![0, 0] S1x128
  slices_S100000x128_S100000x64_0_0 : S100000x128.Slices ![0, 0] S100000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S1600000, .f32⟩
  | .hbm, ⟨84, _⟩ => ⟨S_, .f32⟩
  | .hbm, ⟨85, _⟩ => ⟨S100000, .f32⟩
  | .hbm, ⟨86, _⟩ => ⟨S1600000x1, .i32⟩
  | .hbm, ⟨87, _⟩ => ⟨S100000, .f32⟩
  | .hbm, ⟨88, _⟩ => ⟨S_, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S128x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S128x64, .f32⟩
  | .hbm, ⟨101, _⟩ => ⟨S100000x64, .f32⟩
  | .hbm, ⟨102, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_c_5 : Ref sig .tc := ⟨.hbm, 69, rfl⟩
abbrev main_v46 : Ref sig .tc := ⟨.hbm, 70, rfl⟩
abbrev main_v47 : Ref sig .tc := ⟨.hbm, 71, rfl⟩
abbrev main_c_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«171475_j5385888989319_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.LibLayerSum.lean ====
/-
  The sum of two dense layers, read one row at a time on the extended reals.

  For `[R, K]` arrays `a` and `x`, `[K, N]` matrices `u` and `w` and a bias `b` of `N` entries, the array
  `(a · u + b) + x · w` has as its row `r`
      n ↦ ((∑ k, a r k * u k n) + b n) + ∑ k, x r k * w k n,
  a function of row `r` of `a` and row `r` of `x` alone (`layerSum`). The lemmas here read that row off the two
  spellings a program gives the array — two matrix products accumulated into zero splats with the bias held as a
  one-row matrix `[1, N]` spread over the rows, and two host `dot_general`s with the bias `[N]` broadcast in
  dimension twice — for the plain dimension numbers (contract the left operand's last axis with the right
  operand's first, no batch axis), at any extents and any float formats of the operands. Since both spellings give
  the same function of the row, the array computed block of rows by block of rows and the array computed whole
  agree row by row; `wholeOf` is that array as one function of its index. No finiteness is used: only the
  grouping `(· + b) + ·`, which the two spellings share.
  Built on `row`, `mat`, `vec`, `affine`, `plain_contr_sum` of LibDenseRows.lean and `row_matmul_rowbias` of
  LibBlockRows.lean.
-/
import Idealize.ShloMosaic.Lib.ValueLayout
import Idealize.ShloMosaic.Lib.ValueIdx
import Idealize.ShloMosaic.PureOps.Ideal.Laws
import proofs.«171475_j5385888989319_1_alg».proof.Proof.LibDenseRows
import proofs.«171475_j5385888989319_1_alg».proof.Proof.LibBlockRows

noncomputable section

namespace Cert.LibLayerSum

open Idealize.ShloMosaic Idealize.ShloMosaic.ValueIdx Cert.DenseRows Cert.LibBlockRows

/-- One row times a matrix: `h · W`. -/
def linear {K N : ℕ} (h : Fin K → EReal) (W : Fin K → Fin N → EReal) : Fin N → EReal :=
  fun n => ∑ k : Fin K, h k * W k n

/-- A biased dense layer of the row `h` plus an unbiased one of the row `g`: `(h · U + b) + g · W`. -/
def layerSum {K N : ℕ} (h g : Fin K → EReal) (U W : Fin K → Fin N → EReal) (b : Fin N → EReal) : Fin N → EReal :=
  fun n => affine h U b n + linear g W n

/-- The array whose row `r` is `layerSum` of row `r` of `A` and row `r` of `X`. -/
def wholeOf {R K N : ℕ} (A X : (⟨2, ![R, K]⟩ : Shape).Idx → EReal) (U W : (⟨2, ![K, N]⟩ : Shape).Idx → EReal)
    (b : Fin N → EReal) : (⟨2, ![R, N]⟩ : Shape).Idx → EReal :=
  fun i => layerSum (row A (i 0)) (row X (i 0)) (mat U) (mat W) b (i 1)

theorem wholeOf_ix2 {R K N : ℕ} (A X : (⟨2, ![R, K]⟩ : Shape).Idx → EReal) (U W : (⟨2, ![K, N]⟩ : Shape).Idx → EReal)
    (b : Fin N → EReal) (r : Fin R) (n : Fin N) :
    wholeOf A X U W b (ix2 r n) = layerSum (row A r) (row X r) (mat U) (mat W) b n := rfl

/-- Row `r` of a matrix product accumulated into the zero splat. -/
theorem row_matmul {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (matmul d prec a w (constant (F := Ideal) ⟨2, ![R, N]⟩ .f32 0x00000000#32)) r = linear (row a r) (mat w) := by
  subst hd
  funext n
  show FloatOps.matmul (DotDims.plain R K N) prec a w (constant (F := Ideal) ⟨2, ![R, N]⟩ .f32 0x00000000#32) (ix2 r n) = _
  rw [Ideal.matmul_constant_zero_apply, plain_contr_sum]
  rfl

/-- Row `r` of a host `dot_general`. -/
theorem row_dotGeneral {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (Host.dotGeneral d prec a w : FVec Ideal ⟨2, ![R, N]⟩ .f32) r = linear (row a r) (mat w) := by
  subst hd
  funext n
  show FloatOps.dotGeneral (DotDims.plain R K N) prec .single a w (ix2 r n) = _
  rw [Ideal.dotGeneral_apply, plain_contr_sum]
  rfl

/-- THE BLOCK'S SPELLING: row `r` of `(a ·ₘ u + spread b) + x ·ₘ w`, the products accumulated into zero splats, the
    bias a one-row matrix spread over the rows. -/
theorem row_block {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨2, ![1, N]⟩ .f32)
    (hb : (⟨2, ![1, N]⟩ : Shape).Broadcasts ⟨2, ![R, N]⟩) (r : Fin R) :
    row (addf (addf (matmul d prec a u (constant (F := Ideal) ⟨2, ![R, N]⟩ .f32 0x00000000#32))
            (broadcastTo ⟨2, ![R, N]⟩ b hb))
          (matmul d prec' x w (constant (F := Ideal) ⟨2, ![R, N]⟩ .f32 0x00000000#32))) r
      = layerSum (row a r) (row x r) (mat u) (mat w) (row b (0 : Fin 1)) := by
  funext n
  show row (addf (matmul d prec a u (constant (F := Ideal) ⟨2, ![R, N]⟩ .f32 0x00000000#32))
          (broadcastTo ⟨2, ![R, N]⟩ b hb)) r n
        + row (matmul d prec' x w (constant (F := Ideal) ⟨2, ![R, N]⟩ .f32 0x00000000#32)) r n = _
  rw [row_matmul_rowbias d hd, row_matmul d hd]
  rfl

/-- THE HOST'S SPELLING: row `r` of `(dot_general a u + b broadcast twice) + dot_general x w`. -/
theorem row_host {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)) r
      = layerSum (row a r) (row x r) (mat u) (mat w) (vec b) := by
  funext n
  show row (addf (Host.dotGeneral d prec a u)
          (broadcastInDim ⟨2, ![R, N]⟩ ![0, 1] h2 (broadcastInDim ⟨2, ![1, N]⟩ ![1] h1 b))) r n
        + row (Host.dotGeneral d prec' x w : FVec Ideal ⟨2, ![R, N]⟩ .f32) r n = _
  rw [row_dotGeneral_bias d hd, row_dotGeneral d hd]
  rfl

/-- So the host's array is `wholeOf` of its operands, index by index. -/
theorem host_whole {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)
      = wholeOf a x u w (vec b) := by
  funext i
  obtain ⟨r, n, rfl⟩ : ∃ (r : Fin R) (n : Fin N), i = ix2 r n := ⟨i 0, i 1, eq_ix2 i⟩
  exact congrFun (row_host d hd prec prec' a u x w b h1 h2 r) n

/-- An `[N]` array cast to one row `[1, N]` has the array as that row. -/
theorem row_cast_vec {N : ℕ} (b : (⟨1, ![N]⟩ : Shape).Idx → EReal) (hc : (⟨1, ![N]⟩ : Shape).ShapeCasts ⟨2, ![1, N]⟩) :
    row (shapeCast ⟨2, ![1, N]⟩ b hc) (0 : Fin 1) = vec b := by
  funext n
  show shapeCast ⟨2, ![1, N]⟩ b hc (ix2 (0 : Fin 1) n) = b (ix1 n)
  rw [shapeCast_a_1a_apply]

end Cert.LibLayerSum

end
-- ==== Proof.LibRecip.lean ====
/-
  Dividing against multiplying by the reciprocal, on the extended reals; and a row spread over rows.

  A program that precomputes 1 / d and multiplies, against one that divides by d: the quotient is x · d⁻¹ except at d = 0
  (where it is an infinity by the sign of x), and the inverse of an infinity is 0. So x / d = x · (1 / d) for EVERY extended
  real x as soon as d ≠ 0 — d may be infinite, x may be infinite, no finiteness is needed. A count clamped below at one,
  max (s, 1), is such a d. The last lemma reads a one-row matrix broadcast over m rows at an entry.
-/
import Idealize.ShloMosaic.PureOps.Ideal
import Idealize.ShloMosaic.Lib.ValueIdx
import Idealize.ShloMosaic.Lib.Pipeline.Value

noncomputable section

namespace Cert.LibRecip

open Idealize.ShloMosaic Idealize.ShloMosaic.ValueIdx

/-- Dividing by a non-zero d is multiplying by its reciprocal 1 / d, for every extended real x and d. -/
theorem div_eq_mul_recip (x d : EReal) (hd : d ≠ 0) : Ideal.div x d = x * Ideal.div 1 d := by
  rw [Ideal.div, if_neg hd, Ideal.div, if_neg hd, one_mul]

/-- A quantity clamped below at one is never zero. -/
theorem max_one_ne_zero (s : EReal) : max s (1 : EReal) ≠ 0 :=
  ne_of_gt (lt_of_lt_of_le (by norm_num : (0 : EReal) < 1) (le_max_right s 1))

/-- A row [1, n] spread over m rows reads, at (r, q), the row at q. -/
theorem bcast_row {α : Type} {m n : ℕ} (v : (⟨2, ![1, n]⟩ : Shape).Idx → α) (h : (⟨2, ![1, n]⟩ : Shape).Broadcasts ⟨2, ![m, n]⟩)
    (r : Fin m) (q : Fin n) : broadcastTo ⟨2, ![m, n]⟩ v h (ix2 r q) = v (ix2 (0 : Fin 1) q) := by
  refine broadcastTo_apply v h (ix2 r q) (ix2 (0 : Fin 1) q) fun ax => ?_
  match ax with
  | ⟨0, _⟩ => rfl
  | ⟨1, _⟩ =>
    show q.val = if n = 1 then 0 else q.val
    split
    · have := q.isLt; omega
    · rfl

end Cert.LibRecip

end
-- ==== Proof.LibMeanConv.lean ====
/-
  A two-layer mean-aggregating graph convolution, as functions of whole arrays on the extended reals.

  One layer takes node features `X` ([R, K]), the per-node sums `S` of the neighbours' feature rows, the per-node
  neighbour counts clamped below at one `d`, two weight matrices `U`, `W` ([K, N]) and a bias `b`, and returns the array
  whose row `r` is  (S r / d r) · U + b + X r · W.  Two programs spell it differently:
    * the mean is `S r · (1 / d r)` in one and `S r / d r` in the other — equal as soon as `d r ≠ 0`, with no
      finiteness asked of `S` or of `d` (the inverse of an infinity is 0 on both sides);
    * the three summands are grouped `(A·U + X·W) + b` in one and `(A·U + b) + X·W` in the other — equal because
      addition of extended reals is commutative and associative.
  The dense part is `wholeOf` of LibLayerSum.lean; this file adds the block spelling with the other grouping, the
  rectified layer, the reading of a per-row scalar broadcast over the lanes, and the equality of the two means.
-/
import Idealize.ShloMosaic.Lib.ValueLayout
import Idealize.ShloMosaic.Lib.ValueIdx
import Idealize.ShloMosaic.Lib.IdealHost
import Idealize.ShloMosaic.Lib.Pipeline.Value
import Idealize.ShloMosaic.PureOps.Ideal.Laws
import proofs.«171475_j5385888989319_1_alg».proof.Proof.LibDenseRows
import proofs.«171475_j5385888989319_1_alg».proof.Proof.LibBlockRows
import proofs.«171475_j5385888989319_1_alg».proof.Proof.LibLayerSum
import proofs.«171475_j5385888989319_1_alg».proof.Proof.LibRecip

noncomputable section

namespace Cert.Sage

open Idealize.ShloMosaic Idealize.ShloMosaic.ValueIdx Cert.DenseRows Cert.LibBlockRows Cert.LibLayerSum

/-! ## The dense part of a layer, with and without the rectifier -/

/-- The array whose row `r` is `(A r · U + b) + X r · W`. -/
def dense {R K N : ℕ} (A X : (⟨2, ![R, K]⟩ : Shape).Idx → EReal) (U W : (⟨2, ![K, N]⟩ : Shape).Idx → EReal)
    (b : Fin N → EReal) : (⟨2, ![R, N]⟩ : Shape).Idx → EReal :=
  wholeOf A X U W b

/-- The same array with every entry replaced by its maximum with the number the all-zero f32 word denotes. -/
def denseRelu {R K N : ℕ} (A X : (⟨2, ![R, K]⟩ : Shape).Idx → EReal) (U W : (⟨2, ![K, N]⟩ : Shape).Idx → EReal)
    (b : Fin N → EReal) : (⟨2, ![R, N]⟩ : Shape).Idx → EReal :=
  fun i => max (wholeOf A X U W b i) (Ideal.ofBits .f32 0x00000000#32)

theorem dense_ix2 {R K N : ℕ} (A X : (⟨2, ![R, K]⟩ : Shape).Idx → EReal) (U W : (⟨2, ![K, N]⟩ : Shape).Idx → EReal)
    (b : Fin N → EReal) (r : Fin R) (n : Fin N) :
    dense A X U W b (ix2 r n) = layerSum (row A r) (row X r) (mat U) (mat W) b n := rfl

theorem denseRelu_ix2 {R K N : ℕ} (A X : (⟨2, ![R, K]⟩ : Shape).Idx → EReal) (U W : (⟨2, ![K, N]⟩ : Shape).Idx → EReal)
    (b : Fin N → EReal) (r : Fin R) (n : Fin N) :
    denseRelu A X U W b (ix2 r n)
      = max (layerSum (row A r) (row X r) (mat U) (mat W) b n) (Ideal.ofBits .f32 0x00000000#32) := rfl

/-! ## A block of rows in the grouping `(a · u + x · w) + b` -/

/-- Row `r` of `(a ·ₘ u + x ·ₘ w) + spread b`, the products accumulated into zero splats, the bias a one-row matrix
    spread over the rows: the same function of the two rows as the grouping `(a · u + b) + x · w`, by
    `(p + q) + c = (p + c) + q`. -/
theorem row_block_bias_last {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨2, ![1, N]⟩ .f32)
    (hb : (⟨2, ![1, N]⟩ : Shape).Broadcasts ⟨2, ![R, N]⟩) (r : Fin R) :
    row (addf (addf (matmul d prec a u (constant (F := Ideal) ⟨2, ![R, N]⟩ .f32 0x00000000#32))
            (matmul d prec' x w (constant (F := Ideal) ⟨2, ![R, N]⟩ .f32 0x00000000#32)))
          (broadcastTo ⟨2, ![R, N]⟩ b hb)) r
      = layerSum (row a r) (row x r) (mat u) (mat w) (row b (0 : Fin 1)) := by
  funext n
  show (row (matmul d prec a u (constant (F := Ideal) ⟨2, ![R, N]⟩ .f32 0x00000000#32)) r n
        + row (matmul d prec' x w (constant (F := Ideal) ⟨2, ![R, N]⟩ .f32 0x00000000#32)) r n)
        + broadcastTo ⟨2, ![R, N]⟩ b hb (ix2 r n) = _
  rw [row_matmul d hd, row_matmul d hd, row_spread]
  exact add_right_comm _ _ _

/-! ## A per-row scalar spread over the lanes -/

/-- A vector [R] broadcast in dimension to a column [R, 1] and then over K lanes reads, at (r, k), the vector at r. -/
theorem column_twice_apply {α : Type} {R K : ℕ} (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, K]⟩ ![0, 1]) (r : Fin R) (k : Fin K) :
    broadcastInDim ⟨2, ![R, K]⟩ ![0, 1] h2 (broadcastInDim ⟨2, ![R, 1]⟩ ![0] h1 v) (ix2 r k) = v (ix1 r) := by
  have hR : r.val = if R = 1 then 0 else r.val := by
    split
    · have := r.isLt; omega
    · rfl
  rw [broadcastInDim_apply ![0, 1] h2 _ (ix2 r k) (ix2 r (0 : Fin 1)) (fun a => by
      match a with
      | ⟨0, _⟩ => exact hR
      | ⟨1, _⟩ => rfl),
    broadcastInDim_apply ![0] h1 v (ix2 r (0 : Fin 1)) (ix1 r) (fun a => by
      match a with
      | ⟨0, _⟩ => exact hR)]

/-! ## The mean of the neighbours' rows, in its two spellings -/

/-- `S · spread (ones / d)` and `S / spread d` are one array when `ones` is 1 everywhere and `d` is nowhere 0. -/
theorem mean_mul_eq_div {R K : ℕ} (S : FVec Ideal ⟨2, ![R, K]⟩ .f32) (ones d : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, K]⟩ ![0, 1])
    (hones : ∀ i, ones i = 1) (hd : ∀ i, d i ≠ 0) :
    mulf S (broadcastInDim ⟨2, ![R, K]⟩ ![0, 1] h2 (broadcastInDim ⟨2, ![R, 1]⟩ ![0] h1 (Host.divf ones d)))
      = Host.divf S (broadcastInDim ⟨2, ![R, K]⟩ ![0, 1] h2 (broadcastInDim ⟨2, ![R, 1]⟩ ![0] h1 d)) := by
  funext i
  obtain ⟨r, k, rfl⟩ : ∃ (r : Fin R) (k : Fin K), i = ix2 r k := ⟨i 0, i 1, eq_ix2 i⟩
  show S (ix2 r k) * broadcastInDim ⟨2, ![R, K]⟩ ![0, 1] h2 (broadcastInDim ⟨2, ![R, 1]⟩ ![0] h1 (Host.divf ones d)) (ix2 r k)
      = Ideal.div (S (ix2 r k)) (broadcastInDim ⟨2, ![R, K]⟩ ![0, 1] h2 (broadcastInDim ⟨2, ![R, 1]⟩ ![0] h1 d) (ix2 r k))
  rw [column_twice_apply, column_twice_apply]
  show S (ix2 r k) * Ideal.div (ones (ix1 r)) (d (ix1 r)) = _
  rw [hones, Cert.LibRecip.div_eq_mul_recip (S (ix2 r k)) _ (hd _)]

/-- A count clamped below at the number the f32 word of 1.0 denotes is nowhere 0. -/
theorem clamped_ne_zero {t : Shape} (cnt : FVec Ideal t .f32)
    (dims : Fin (⟨0, ![]⟩ : Shape).rank → Fin t.rank) (h : (⟨0, ![]⟩ : Shape).BroadcastsInDim t dims) (i : t.Idx) :
    maximumf cnt (broadcastInDim t dims h (constant (F := Ideal) ⟨0, ![]⟩ .f32 0x3F800000#32)) i ≠ 0 := by
  show max (cnt i) (broadcastInDim t dims h (constant (F := Ideal) ⟨0, ![]⟩ .f32 0x3F800000#32) i) ≠ 0
  rw [splat_apply]
  show max (cnt i) (Ideal.ofBits .f32 0x3F800000#32) ≠ 0
  rw [Ideal.ofBits_one_f32]
  exact Cert.LibRecip.max_one_ne_zero _

/-- The all-ones vector: a rank-zero constant of the f32 word of 1.0 broadcast to any shape is 1 everywhere. -/
theorem ones_apply {t : Shape} (dims : Fin (⟨0, ![]⟩ : Shape).rank → Fin t.rank)
    (h : (⟨0, ![]⟩ : Shape).BroadcastsInDim t dims) (i : t.Idx) :
    broadcastInDim t dims h (constant (F := Ideal) ⟨0, ![]⟩ .f32 0x3F800000#32) i = 1 := by
  rw [splat_apply]
  show Ideal.ofBits .f32 0x3F800000#32 = 1
  exact Ideal.ofBits_one_f32

/-! ## The two layers as one function of the argument arrays -/

/-- The mean of the neighbours' rows: the per-node sums `nb f` divided, row by row, by the clamped count `d`. -/
def meanDiv {R K : ℕ} (nb : FVec Ideal ⟨2, ![R, K]⟩ .f32 → FVec Ideal ⟨2, ![R, K]⟩ .f32) (d : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, K]⟩ ![0, 1])
    (f : FVec Ideal ⟨2, ![R, K]⟩ .f32) : FVec Ideal ⟨2, ![R, K]⟩ .f32 :=
  Host.divf (nb f) (broadcastInDim ⟨2, ![R, K]⟩ ![0, 1] h2 (broadcastInDim ⟨2, ![R, 1]⟩ ![0] h1 d))

/-- Two layers: the rectified layer of `x`, then the plain layer of its result `h`, each fed the mean of the neighbours'
    rows of its own input. `nb` is the operator "sum, per node, the rows of its in-neighbours" and `d` the clamped
    in-degree; both are fixed by the edge list alone. -/
def net {R K N : ℕ} (nb : FVec Ideal ⟨2, ![R, K]⟩ .f32 → FVec Ideal ⟨2, ![R, K]⟩ .f32) (d : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, K]⟩ ![0, 1])
    (x : FVec Ideal ⟨2, ![R, K]⟩ .f32) (U1 W1 : FVec Ideal ⟨2, ![K, K]⟩ .f32) (b1 : Fin K → EReal)
    (U2 W2 : FVec Ideal ⟨2, ![K, N]⟩ .f32) (b2 : Fin N → EReal) : (⟨2, ![R, N]⟩ : Shape).Idx → EReal :=
  dense (meanDiv nb d h1 h2 (denseRelu (meanDiv nb d h1 h2 x) x U1 W1 b1)) (denseRelu (meanDiv nb d h1 h2 x) x U1 W1 b1) U2 W2 b2

end Cert.Sage

end
-- ==== Proof.Spec.lean ====
/-
  A two-layer mean-aggregating graph convolution with a normalised, rectified hidden layer, as functions of whole
  arrays on the extended reals.

  With `nbMean ei f` the array whose row r is the mean of the rows of `f` over the in-neighbours of node r (the sum
  of the gathered rows divided by the in-degree clamped below at one; it is fixed by the edge list `ei` and is never
  opened here), the hidden layer is
      H r n = max (((nbMean x) r · U₁ + b₁ + x r · W₁) n · s n + t n, 0)
  with one scale `s n = γ n · (σ² n + ε)^(-1/2)` and one shift `t n = β n − μ n · s n` per column, and the result is
      out r n = ((nbMean H) r · U₂ + b₂ + H r · W₂) n          for the first 64 columns n,
  the second layer's matrices and bias being padded with zero columns to 128 columns and the result cut back to 64.
-/
import proofs.«171475_j5385888989319_1_alg».proof.KernelIdeal
import proofs.«171475_j5385888989319_1_alg».proof.Proof.LibDenseRows
import proofs.«171475_j5385888989319_1_alg».proof.Proof.LibBlockRows
import proofs.«171475_j5385888989319_1_alg».proof.Proof.LibLayerSum
import proofs.«171475_j5385888989319_1_alg».proof.Proof.LibMeanConv

noncomputable section

namespace Cert.Sage2

open Idealize.ShloMosaic Idealize.ShloMosaic.ValueIdx Cert.DenseRows Cert.LibLayerSum
open Cert.KernelIdeal Cert.KernelIdeal.Facts₀

/-- The number the all-zero f32 word denotes. -/
def zeroE : EReal := Ideal.ofBits .f32 0x00000000#32

/-- The hidden layer on any extents: row r of `(A · U + b) + X · W`, every column n scaled by `sc n`, shifted by
    `bi n`, and rectified. -/
def hidden {R K N : ℕ} (A X : (⟨2, ![R, K]⟩ : Shape).Idx → EReal) (U W : (⟨2, ![K, N]⟩ : Shape).Idx → EReal)
    (b sc bi : Fin N → EReal) : (⟨2, ![R, N]⟩ : Shape).Idx → EReal :=
  fun i => max (wholeOf A X U W b i * sc (i 1) + bi (i 1)) zeroE

theorem hidden_ix2 {R K N : ℕ} (A X : (⟨2, ![R, K]⟩ : Shape).Idx → EReal) (U W : (⟨2, ![K, N]⟩ : Shape).Idx → EReal)
    (b sc bi : Fin N → EReal) (r : Fin R) (n : Fin N) :
    hidden A X U W b sc bi (ix2 r n)
      = max (layerSum (row A r) (row X r) (mat U) (mat W) b n * sc n + bi n) zeroE := rfl

variable [Cert.KernelIdeal.Facts]

/-! ## The edge list's two rows, the clamped in-degree, the mean over in-neighbours -/

/-- The destination node of every edge: row 1 of the edge list. -/
def dstIdx (ei : IVec S2x1600000 32) : IVec S1600000 32 :=
  shapeCast S1600000 (extractStridedSlice S1x1600000 ![1, 0] ei slices_S2x1600000_S1x1600000_1_0) shapeCasts_S1x1600000_S1600000

/-- The source node of every edge: row 0 of the edge list, a negative entry counted from the end. -/
def srcIdx (ei : IVec S2x1600000 32) : IVec S1600000 32 :=
  select
    (cmpi .slt (shapeCast S1600000 (extractStridedSlice S1x1600000 ![0, 0] ei slices_S2x1600000_S1x1600000_0_0) shapeCasts_S1x1600000_S1600000)
      (broadcastInDim S1600000 ![] bcast_S_S1600000 (constantI S_ 32 0#32)))
    (addi (shapeCast S1600000 (extractStridedSlice S1x1600000 ![0, 0] ei slices_S2x1600000_S1x1600000_0_0) shapeCasts_S1x1600000_S1600000)
      (broadcastInDim S1600000 ![] bcast_S_S1600000 (constantI S_ 32 100000#32)))
    (shapeCast S1600000 (extractStridedSlice S1x1600000 ![0, 0] ei slices_S2x1600000_S1x1600000_0_0) shapeCasts_S1x1600000_S1600000)

/-- The in-degree of every node (a one added per edge at its destination), clamped below at one. -/
def degClip (ei : IVec S2x1600000 32) : FVec Ideal S100000 .f32 :=
  maximumf (broadcastInDim S100000 ![] bcast_S_S100000 (constant (F := Ideal) S_ .f32 0x3F800000#32))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dstIdx ei))
      (broadcastInDim S1600000 ![] bcast_S_S1600000 (constant (F := Ideal) S_ .f32 0x3F800000#32)))

/-- The mean of the rows of `f` over each node's in-neighbours: the gathered source rows added up at their
    destinations, divided row by row by the clamped in-degree. -/
def nbMean (ei : IVec S2x1600000 32) (f : FVec Ideal S100000x128 .f32) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dstIdx ei))
      (Host.gather gather_S100000x128_S1600000x1_S1600000x128_1_0_n_n_0_1_1128 f
        (broadcastInDim S1600000x1 ![0] bcast_S1600000_S1600000x1_0 (srcIdx ei))))
    (broadcastInDim S100000x128 ![0, 1] bcast_S100000x1_S100000x128_0_1
      (broadcastInDim S100000x1 ![0] bcast_S100000_S100000x1_0 (degClip ei)))

/-! ## The normalisation's scale and shift, one per column -/

/-- `(σ² + ε)^(-1/2)` per column. -/
def rstd (var : FVec Ideal S128 .f32) : FVec Ideal S128 .f32 :=
  Host.rsqrt (addf var (broadcastInDim S128 ![] bcast_S_S128 (constant (F := Ideal) S_ .f32 0x3727C5AC#32)))

/-- The scale `γ · (σ² + ε)^(-1/2)`. -/
def bnScale (g var : FVec Ideal S128 .f32) : FVec Ideal S128 .f32 := mulf g (rstd var)

/-- The shift `β − μ · scale`. -/
def bnShift (g be mu var : FVec Ideal S128 .f32) : FVec Ideal S128 .f32 := subf be (mulf mu (bnScale g var))

/-! ## The two layers -/

/-- The hidden layer of all the nodes. -/
def hiddenK (x : FVec Ideal S100000x128 .f32) (ei : IVec S2x1600000 32) (w1l : FVec Ideal S128x128 .f32)
    (b1 : FVec Ideal S128 .f32) (w1r : FVec Ideal S128x128 .f32) (g be mu var : FVec Ideal S128 .f32) :
    FVec Ideal S100000x128 .f32 :=
  hidden (nbMean ei x) x (transpose S128x128 [1, 0] w1l transposes_S128x128_S128x128_1_0)
    (transpose S128x128 [1, 0] w1r transposes_S128x128_S128x128_1_0)
    (row (shapeCast S1x128 b1 shapeCasts_S128_S1x128) (0 : Fin 1))
    (row (shapeCast S1x128 (bnScale g var) shapeCasts_S128_S1x128) (0 : Fin 1))
    (row (shapeCast S1x128 (bnShift g be mu var) shapeCasts_S128_S1x128) (0 : Fin 1))

/-- A [64, 128] weight matrix transposed and padded with 64 zero columns. -/
def padW (w : FVec Ideal S64x128 .f32) : FVec Ideal S128x128 .f32 :=
  pad S128x128 ![0, 0] ![0, 64] ![0, 0] (transpose S128x64 [1, 0] w transposes_S64x128_S128x64_1_0)
    (sitofp .f32 (constantI S_ 32 0#32) : FVec Ideal S_ .f32) pads_S128x64_S128x128_000_0640 h_S_

/-- A bias of 64 entries as one row, padded with 64 zeros. -/
def padB (b2 : FVec Ideal S64 .f32) : FVec Ideal S1x128 .f32 :=
  pad S1x128 ![0, 0] ![0, 64] ![0, 0] (shapeCast S1x64 b2 shapeCasts_S64_S1x64)
    (sitofp .f32 (constantI S_ 32 0#32) : FVec Ideal S_ .f32) pads_S1x64_S1x128_000_0640 h_S_

/-- The second layer on 128 padded columns. -/
def outK (x : FVec Ideal S100000x128 .f32) (ei : IVec S2x1600000 32) (w1l : FVec Ideal S128x128 .f32)
    (b1 : FVec Ideal S128 .f32) (w1r : FVec Ideal S128x128 .f32) (g be mu var : FVec Ideal S128 .f32)
    (w2l : FVec Ideal S64x128 .f32) (b2 : FVec Ideal S64 .f32) (w2r : FVec Ideal S64x128 .f32) :
    FVec Ideal S100000x128 .f32 :=
  wholeOf (nbMean ei (hiddenK x ei w1l b1 w1r g be mu var)) (hiddenK x ei w1l b1 w1r g be mu var)
    (padW w2l) (padW w2r) (row (padB b2) (0 : Fin 1))

/-- The result: the first 64 columns of the second layer. -/
def kOut (x : FVec Ideal S100000x128 .f32) (ei : IVec S2x1600000 32) (w1l : FVec Ideal S128x128 .f32)
    (b1 : FVec Ideal S128 .f32) (w1r : FVec Ideal S128x128 .f32) (g be mu var : FVec Ideal S128 .f32)
    (w2l : FVec Ideal S64x128 .f32) (b2 : FVec Ideal S64 .f32) (w2r : FVec Ideal S64x128 .f32) :
    FVec Ideal S100000x64 .f32 :=
  extractStridedSlice S100000x64 ![0, 0] (outK x ei w1l b1 w1r g be mu var w2l b2 w2r) slices_S100000x128_S100000x64_0_0

end Cert.Sage2

end
-- ==== Proof.KernelRun.lean ====
/-
  The kernel program's run with its result NAMED: every weakly fair execution of the program terminates, nothing
  faulting, with the argument arrays as launched and the result array at the last host stretch's value of the
  result buffer — the fold of the program's segments (host stretches and the two kernel regions) from the launch
  memory. The run is the one the frame takes, through the same segments; what is added is that the final state is
  read at the result buffer too.
-/
import proofs.«171475_j5385888989319_1_alg».proof.Proof.Gen.KernelIdeal.Frame

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates without a fault; the
    result buffer ends at the value the last boundary's contents give it, and the arguments end as launched. -/
theorem run_named : θ_run defs (onTc (τ := τ) (main (F := F))) ⟨m, fun _ => 0, ρ⟩ (fun r => ∀ c : Dev nD,
      r.2.mem ((c.tc : Thread nD τ).loc main_v54) = W12 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v54 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Named

end
-- ==== Proof.LibCastSame.lean ====
/-
  Moving a value along an equation of a type with itself changes nothing.

  Stated as a proposition proved from heterogeneous equality, not by unfolding: a rewriting pass that uses it
  replaces each such move by the value itself with an explicit equation at that one place, instead of asking for the
  whole surrounding term to be compared with its unfolded form.
-/

namespace Cert.CastSame

universe u

/-- A value moved along a proof that its type equals itself is the value. -/
theorem cast_same {α : Sort u} (h : α = α) (a : α) : cast h a = a := eq_of_heq (cast_heq h a)

end Cert.CastSame
-- ==== Proof.KernelHost.lean ====
/-
  What the kernel program's host stretches leave in the buffers the two kernel regions read, at the extended reals.

  The program runs host operations, then region 0, then host operations, then region 1, then one host slice. The
  contents of a buffer at a segment boundary is the fold of the operations before it over the contents at the previous
  boundary. Read back operation by operation, the buffers region 0 is entered with are: the mean of the in-neighbours'
  rows of the input features, the input features, the two transposed first-layer matrices, and the bias, scale and
  shift as one-row matrices; the buffers region 1 is entered with are: the same mean taken of region 0's output, that
  output itself, and the second layer's transposed matrices and bias padded with zero columns. The edge list's two
  rows and the clamped in-degree are computed before region 0 and only read afterwards.
-/
import proofs.«171475_j5385888989319_1_alg».proof.Proof.Gen.KernelIdeal.Frame
import proofs.«171475_j5385888989319_1_alg».proof.Proof.Spec
import proofs.«171475_j5385888989319_1_alg».proof.Proof.LibCastSame
import Idealize.ShloMosaic.Lib.StableHlo.Run

set_option maxRecDepth 16384

noncomputable section

namespace Cert.Sage2

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Reads a buffer after a literal list of host operations back to the contents before them, and removes the moves
    of a value along an equation of a type with itself that an inlined function's operations leave. -/
local macro "host_read" : tactic =>
  `(tactic| (after_results_simp; try simp only [TRef.toBuf, TRef.ofBuf, Cert.CastSame.cast_same]))

/-! ## The buffers at region 0's entry -/

/-- Row 0 of the edge list, as a vector. -/
def srcRow (ei : IVec S2x1600000 32) : IVec S1600000 32 :=
  shapeCast S1600000 (extractStridedSlice S1x1600000 ![0, 0] ei slices_S2x1600000_S1x1600000_0_0) shapeCasts_S1x1600000_S1600000

theorem W3_v1 (c : Dev nD) : W3 (F := Ideal) m ρ c (Proc.devRef .tc main_v1) = srcRow (m ((c : Thread nD τ).loc main_arg1)) := by
  dsimp only [W3, W2, W1, W0]
  simp only [hostOps0, hostOps0_1, hostOps0_2]
  host_read
  rfl

theorem W3_v3 (c : Dev nD) : W3 (F := Ideal) m ρ c (Proc.devRef .tc main_v3) = dstIdx (m ((c : Thread nD τ).loc main_arg1)) := by
  dsimp only [W3, W2, W1, W0]
  simp only [hostOps0, hostOps0_1, hostOps0_2]
  host_read
  rfl

theorem W3_v18 (c : Dev nD) : W3 (F := Ideal) m ρ c (Proc.devRef .tc main_v18) = degClip (m ((c : Thread nD τ).loc main_arg1)) := by
  dsimp only [W3, W2, W1, W0]
  simp only [hostOps0, hostOps0_1, hostOps0_2]
  host_read
  unfold degClip dstIdx
  rfl

theorem W3_v21 (c : Dev nD) : W3 (F := Ideal) m ρ c (Proc.devRef .tc main_v21)
    = nbMean (m ((c : Thread nD τ).loc main_arg1)) (m ((c : Thread nD τ).loc main_arg0)) := by
  dsimp only [W3, W2, W1, W0]
  simp only [hostOps0, hostOps0_1, hostOps0_2]
  host_read
  unfold nbMean degClip dstIdx srcIdx
  rfl

theorem W3_arg (c : Dev nD) (r : Ref sig .tc)
    (h : r = main_arg0 ∨ r = main_arg9 ∨ r = main_arg10 ∨ r = main_arg11) :
    W3 (F := Ideal) m ρ c (Proc.devRef .tc r) = m ((c : Thread nD τ).loc r) := by
  dsimp only [W3, W2, W1, W0]
  simp only [hostOps0, hostOps0_1, hostOps0_2]
  rcases h with h | h | h | h <;> subst h <;> host_read <;> rfl

theorem W3_v28 (c : Dev nD) : W3 (F := Ideal) m ρ c (Proc.devRef .tc main_v28)
    = transpose S128x128 [1, 0] (m ((c : Thread nD τ).loc main_arg2)) transposes_S128x128_S128x128_1_0 := by
  dsimp only [W3, W2, W1, W0]
  simp only [hostOps0, hostOps0_1, hostOps0_2]
  host_read

theorem W3_v29 (c : Dev nD) : W3 (F := Ideal) m ρ c (Proc.devRef .tc main_v29)
    = transpose S128x128 [1, 0] (m ((c : Thread nD τ).loc main_arg4)) transposes_S128x128_S128x128_1_0 := by
  dsimp only [W3, W2, W1, W0]
  simp only [hostOps0, hostOps0_1, hostOps0_2]
  host_read

theorem W3_v30 (c : Dev nD) : W3 (F := Ideal) m ρ c (Proc.devRef .tc main_v30)
    = shapeCast S1x128 (m ((c : Thread nD τ).loc main_arg3)) shapeCasts_S128_S1x128 := by
  dsimp only [W3, W2, W1, W0]
  simp only [hostOps0, hostOps0_1, hostOps0_2]
  host_read
  rfl

theorem W3_v31 (c : Dev nD) : W3 (F := Ideal) m ρ c (Proc.devRef .tc main_v31)
    = shapeCast S1x128 (bnScale (m ((c : Thread nD τ).loc main_arg5)) (m ((c : Thread nD τ).loc main_arg8))) shapeCasts_S128_S1x128 := by
  dsimp only [W3, W2, W1, W0]
  simp only [hostOps0, hostOps0_1, hostOps0_2]
  host_read
  unfold bnScale rstd
  rfl

theorem W3_v32 (c : Dev nD) : W3 (F := Ideal) m ρ c (Proc.devRef .tc main_v32)
    = shapeCast S1x128 (bnShift (m ((c : Thread nD τ).loc main_arg5)) (m ((c : Thread nD τ).loc main_arg6))
        (m ((c : Thread nD τ).loc main_arg7)) (m ((c : Thread nD τ).loc main_arg8))) shapeCasts_S128_S1x128 := by
  dsimp only [W3, W2, W1, W0]
  simp only [hostOps0, hostOps0_1, hostOps0_2]
  host_read
  unfold bnShift bnScale rstd
  rfl

/-! ## Region 0 leaves the buffers it does not own as it found them -/

theorem W4_v1 (c : Dev nD) : W4 (F := Ideal) m ρ c (Proc.devRef .tc main_v1) = srcRow (m ((c : Thread nD τ).loc main_arg1)) :=
  (W4_of_ne m ρ c main_v1 (by decide)).trans (W3_v1 m ρ c)

theorem W4_v3 (c : Dev nD) : W4 (F := Ideal) m ρ c (Proc.devRef .tc main_v3) = dstIdx (m ((c : Thread nD τ).loc main_arg1)) :=
  (W4_of_ne m ρ c main_v3 (by decide)).trans (W3_v3 m ρ c)

theorem W4_v18 (c : Dev nD) : W4 (F := Ideal) m ρ c (Proc.devRef .tc main_v18) = degClip (m ((c : Thread nD τ).loc main_arg1)) :=
  (W4_of_ne m ρ c main_v18 (by decide)).trans (W3_v18 m ρ c)

theorem W4_arg9 (c : Dev nD) : W4 (F := Ideal) m ρ c (Proc.devRef .tc main_arg9) = m ((c : Thread nD τ).loc main_arg9) :=
  (W4_of_ne m ρ c main_arg9 (by decide)).trans (W3_arg m ρ c main_arg9 (.inr (.inl rfl)))

theorem W4_arg10 (c : Dev nD) : W4 (F := Ideal) m ρ c (Proc.devRef .tc main_arg10) = m ((c : Thread nD τ).loc main_arg10) :=
  (W4_of_ne m ρ c main_arg10 (by decide)).trans (W3_arg m ρ c main_arg10 (.inr (.inr (.inl rfl))))

theorem W4_arg11 (c : Dev nD) : W4 (F := Ideal) m ρ c (Proc.devRef .tc main_arg11) = m ((c : Thread nD τ).loc main_arg11) :=
  (W4_of_ne m ρ c main_arg11 (by decide)).trans (W3_arg m ρ c main_arg11 (.inr (.inr (.inr rfl))))

/-! ## The buffers at region 1's entry, from the contents region 0 leaves -/

theorem W10_v33 (c : Dev nD) : W10 (F := Ideal) m ρ c (Proc.devRef .tc main_v33) = W4 m ρ c (Proc.devRef .tc main_v33) := by
  dsimp only [W10, W9, W8, W7, W6, W5]
  simp only [hostOps1, hostOps1_1, hostOps1_2, hostOps1_3, hostOps1_4, hostOps1_5]
  host_read

theorem W10_v46 (c : Dev nD) : W10 (F := Ideal) m ρ c (Proc.devRef .tc main_v46)
    = nbMean (m ((c : Thread nD τ).loc main_arg1)) (W4 m ρ c (Proc.devRef .tc main_v33)) := by
  dsimp only [W10, W9, W8, W7, W6, W5]
  simp only [hostOps1, hostOps1_1, hostOps1_2, hostOps1_3, hostOps1_4, hostOps1_5]
  host_read
  rw [W4_v1, W4_v3, W4_v18]
  unfold nbMean srcIdx srcRow
  rfl

theorem W10_v48 (c : Dev nD) : W10 (F := Ideal) m ρ c (Proc.devRef .tc main_v48) = padW (m ((c : Thread nD τ).loc main_arg9)) := by
  dsimp only [W10, W9, W8, W7, W6, W5]
  simp only [hostOps1, hostOps1_1, hostOps1_2, hostOps1_3, hostOps1_4, hostOps1_5]
  host_read
  rw [W4_arg9]
  unfold padW
  rfl

theorem W10_v50 (c : Dev nD) : W10 (F := Ideal) m ρ c (Proc.devRef .tc main_v50) = padW (m ((c : Thread nD τ).loc main_arg11)) := by
  dsimp only [W10, W9, W8, W7, W6, W5]
  simp only [hostOps1, hostOps1_1, hostOps1_2, hostOps1_3, hostOps1_4, hostOps1_5]
  host_read
  rw [W4_arg11]
  unfold padW
  rfl

theorem W10_v52 (c : Dev nD) : W10 (F := Ideal) m ρ c (Proc.devRef .tc main_v52) = padB (m ((c : Thread nD τ).loc main_arg10)) := by
  dsimp only [W10, W9, W8, W7, W6, W5]
  simp only [hostOps1, hostOps1_1, hostOps1_2, hostOps1_3, hostOps1_4, hostOps1_5]
  host_read
  rw [W4_arg10]
  unfold padB
  rfl

/-! ## The result buffer, from the contents region 1 leaves -/

theorem W12_v54 (c : Dev nD) : W12 (F := Ideal) m ρ c (Proc.devRef .tc main_v54)
    = extractStridedSlice S100000x64 ![0, 0] (W11 m ρ c (Proc.devRef .tc main_v53)) slices_S100000x128_S100000x64_0_0 := by
  dsimp only [W12]
  simp only [hostOps2]
  host_read

end Cert.Sage2

end
-- ==== Proof.Region0.lean ====
/-
  The hidden layer as one array.

  The first kernel region walks a grid of 20 points. At point t it loads rows 5000 t … 5000 t + 4999 of the two
  [100000, 128] row arrays (the neighbour means and the features), the two [128, 128] weight matrices and the three
  one-row arrays (bias, scale, shift) whole, and stores, for its 5000 rows,
      max (((a · u + x · w) + b) * s + β, 0),
  the bias b, the scale s and the shift β spread over the rows. Entry (p, n) of that block depends on row p of the two row blocks
  alone, and is entry (5000 t + p, n) of `hidden` of the whole arrays; the 20 blocks tile the 100000 rows, so after
  the region the output array is `hidden` of the arrays the region found.
-/
import proofs.«171475_j5385888989319_1_alg».proof.Proof.Gen.KernelIdeal.Frame
import proofs.«171475_j5385888989319_1_alg».proof.Proof.Spec

noncomputable section

namespace Cert.Sage2

open Cert.KernelIdeal Cert.KernelIdeal.Gen Cert.DenseRows Cert.LibLayerSum Cert.LibBlockRows
open Idealize.ShloMosaic Idealize.ShloMosaic.TcCoe Idealize.ShloMosaic.ValueIdx Idealize.SL.Sem

namespace R0

/-- The hidden layer's block, entry by entry: entry (p, n) of what the body stores is the rectified, scaled and
    shifted layer sum of row p of the two row blocks. -/
theorem pay0_at (x0 x1 : Vec Ideal S5000x128 .f32) (x2 x3 : Vec Ideal S128x128 .f32)
    (x4 x5 x6 : Vec Ideal S1x128 .f32) (p : Fin 5000) (n : Fin 128) :
    k0_pay1 (F := Ideal) x0 x1 x2 x3 x4 x5 x6 (ix2 p n)
      = max (layerSum (row x0 p) (row x1 p) (mat x2) (mat x3) (row x4 (0 : Fin 1)) n * row x5 (0 : Fin 1) n
              + row x6 (0 : Fin 1) n) zeroE := by
  unfold k0_pay1
  show max (row (addf (addf (matmul dot_S5000x128_S128x128_S5000x128_1_0_0_1_n_n none
                (truncf FTy.bf16 (shapeCast S5000x128 x0 shapeCasts_S5000x128_S5000x128) bitsLt_bf16_f32)
                (truncf FTy.bf16 (shapeCast S128x128 x2 shapeCasts_S128x128_S128x128) bitsLt_bf16_f32)
                (constant (F := Ideal) S5000x128 FTy.f32 0#32))
              (matmul dot_S5000x128_S128x128_S5000x128_1_0_0_1_n_n none (truncf FTy.bf16 x1 bitsLt_bf16_f32)
                (truncf FTy.bf16 (shapeCast S128x128 x3 shapeCasts_S128x128_S128x128) bitsLt_bf16_f32)
                (constant (F := Ideal) S5000x128 FTy.f32 0#32)))
            (broadcastTo S5000x128 (shapeCast S1x128 x4 shapeCasts_S1x128_S1x128) broadcasts_S1x128_S5000x128)) p n
          * broadcastTo S5000x128 (shapeCast S1x128 x5 shapeCasts_S1x128_S1x128) broadcasts_S1x128_S5000x128 (ix2 p n)
          + broadcastTo S5000x128 (shapeCast S1x128 x6 shapeCasts_S1x128_S1x128) broadcasts_S1x128_S5000x128 (ix2 p n))
        (Ideal.ofBits .f32 0x00000000#32) = _
  rw [Cert.Sage.row_block_bias_last dot_S5000x128_S128x128_S5000x128_1_0_0_1_n_n rfl, row_spread, row_spread]
  simp only [shapeCast_self]
  rfl

theorem zeros2 : (![0, 0] : Fin 2 → Nat) = fun _ => 0 := funext fun a => by fin_cases a <;> rfl

/-- The index maps over the grid: the row-block windows sit at block (t, 0), the others at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b)) (c : Dev nD)

/-- Entry (p, k) of the first row-block window's block at point t is entry (5000 t + p, k) of its array. -/
theorem blk0_0 (t : Fin cfg0.N) (p : Fin 5000) (k : Fin 128) (h : 5000 * t.val + p.val < 100000) :
    (iblk0 (F := Ideal) V c 0 t : Vec Ideal S5000x128 .f32) (ix2 p k)
      = (V c main_v21 : S100000x128.Idx → EReal) (ix2 ⟨5000 * t.val + p.val, h⟩ k) := by
  obtain ⟨e0, e1, -⟩ := idx0 t
  show (V c main_v21 : S100000x128.Idx → EReal) (((cfg0.win 0).blk t).view.emb (ix2 p k)) = _
  refine congrArg (V c main_v21 : S100000x128.Idx → EReal) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The same for the second row-block window. -/
theorem blk0_1 (t : Fin cfg0.N) (p : Fin 5000) (k : Fin 128) (h : 5000 * t.val + p.val < 100000) :
    (iblk0 (F := Ideal) V c 1 t : Vec Ideal S5000x128 .f32) (ix2 p k)
      = (V c main_arg0 : S100000x128.Idx → EReal) (ix2 ⟨5000 * t.val + p.val, h⟩ k) := by
  obtain ⟨-, -, e0, e1, -⟩ := idx0 t
  show (V c main_arg0 : S100000x128.Idx → EReal) (((cfg0.win 1).blk t).view.emb (ix2 p k)) = _
  refine congrArg (V c main_arg0 : S100000x128.Idx → EReal) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The two weight matrices' windows hold the whole matrix at every point. -/
theorem blk0_2 (t : Fin cfg0.N) (k n : Fin 128) :
    (iblk0 (F := Ideal) V c 2 t : Vec Ideal S128x128 .f32) (ix2 k n) = (V c main_v28 : S128x128.Idx → EReal) (ix2 k n) := by
  obtain ⟨-, -, -, -, e0, e1, -⟩ := idx0 t
  show (V c main_v28 : S128x128.Idx → EReal) (((cfg0.win 2).blk t).view.emb (ix2 k n)) = _
  refine congrArg (V c main_v28 : S128x128.Idx → EReal) (funext fun a => Fin.ext ?_)
  match a with
  | ⟨0, _⟩ => show win0_2.index t (0 : Fin 2) * 128 + 1 * k.val = k.val; rw [e0]; omega
  | ⟨1, _⟩ => show win0_2.index t (1 : Fin 2) * 128 + 1 * n.val = n.val; rw [e1]; omega

theorem blk0_3 (t : Fin cfg0.N) (k n : Fin 128) :
    (iblk0 (F := Ideal) V c 3 t : Vec Ideal S128x128 .f32) (ix2 k n) = (V c main_v29 : S128x128.Idx → EReal) (ix2 k n) := by
  obtain ⟨-, -, -, -, -, -, e0, e1, -⟩ := idx0 t
  show (V c main_v29 : S128x128.Idx → EReal) (((cfg0.win 3).blk t).view.emb (ix2 k n)) = _
  refine congrArg (V c main_v29 : S128x128.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 128 + 1 * n.val = n.val; rw [e1]; omega

/-- The three one-row windows (bias, scale, shift) hold their whole row at every point. -/
theorem blk0_4 (t : Fin cfg0.N) (n : Fin 128) :
    (iblk0 (F := Ideal) V c 4 t : Vec Ideal S1x128 .f32) (ix2 (0 : Fin 1) n)
      = (V c main_v30 : S1x128.Idx → EReal) (ix2 (0 : Fin 1) n) := by
  obtain ⟨-, -, -, -, -, -, -, -, e0, e1, -⟩ := idx0 t
  show (V c main_v30 : S1x128.Idx → EReal) (((cfg0.win 4).blk t).view.emb (ix2 (0 : Fin 1) n)) = _
  refine congrArg (V c main_v30 : S1x128.Idx → EReal) (funext fun a => Fin.ext ?_)
  match a with
  | ⟨0, _⟩ => show win0_4.index t (0 : Fin 2) * 1 + 1 * 0 = 0; rw [e0]
  | ⟨1, _⟩ => show win0_4.index t (1 : Fin 2) * 128 + 1 * n.val = n.val; rw [e1]; omega

theorem blk0_5 (t : Fin cfg0.N) (n : Fin 128) :
    (iblk0 (F := Ideal) V c 5 t : Vec Ideal S1x128 .f32) (ix2 (0 : Fin 1) n)
      = (V c main_v31 : S1x128.Idx → EReal) (ix2 (0 : Fin 1) n) := by
  obtain ⟨-, -, -, -, -, -, -, -, -, -, e0, e1, -⟩ := idx0 t
  show (V c main_v31 : S1x128.Idx → EReal) (((cfg0.win 5).blk t).view.emb (ix2 (0 : Fin 1) n)) = _
  refine congrArg (V c main_v31 : S1x128.Idx → EReal) (funext fun a => Fin.ext ?_)
  match a with
  | ⟨0, _⟩ => show win0_5.index t (0 : Fin 2) * 1 + 1 * 0 = 0; rw [e0]
  | ⟨1, _⟩ => show win0_5.index t (1 : Fin 2) * 128 + 1 * n.val = n.val; rw [e1]; omega

theorem blk0_6 (t : Fin cfg0.N) (n : Fin 128) :
    (iblk0 (F := Ideal) V c 6 t : Vec Ideal S1x128 .f32) (ix2 (0 : Fin 1) n)
      = (V c main_v32 : S1x128.Idx → EReal) (ix2 (0 : Fin 1) n) := by
  obtain ⟨-, -, -, -, -, -, -, -, -, -, -, -, e0, e1, -⟩ := idx0 t
  show (V c main_v32 : S1x128.Idx → EReal) (((cfg0.win 6).blk t).view.emb (ix2 (0 : Fin 1) n)) = _
  refine congrArg (V c main_v32 : S1x128.Idx → EReal) (funext fun a => Fin.ext ?_)
  match a with
  | ⟨0, _⟩ => show win0_6.index t (0 : Fin 2) * 1 + 1 * 0 = 0; rw [e0]
  | ⟨1, _⟩ => show win0_6.index t (1 : Fin 2) * 128 + 1 * n.val = n.val; rw [e1]; omega

/-- Entry (p, n) of the output window's block at point t sits at (5000 t + p, n) of the array. -/
theorem emb0_7 (t : Fin cfg0.N) (p : Fin 5000) (n : Fin 128) (h : 5000 * t.val + p.val < 100000) :
    (((cfg0.win 7).blk t).view.emb (ix2 p n) : S100000x128.Idx) = ix2 ⟨5000 * t.val + p.val, h⟩ n := by
  obtain ⟨-, -, -, -, -, -, -, -, -, -, -, -, -, -, e0, e1⟩ := idx0 t
  refine funext fun a => Fin.ext ?_
  match a with
  | ⟨0, _⟩ => show win0_7.index t (0 : Fin 2) * 5000 + 1 * p.val = 5000 * t.val + p.val; rw [e0]; omega
  | ⟨1, _⟩ => show win0_7.index t (1 : Fin 2) * 128 + 1 * n.val = n.val; rw [e1]; omega

/-- A block whose loaded rows and matrices are those of the whole arrays stores the hidden layer's entries. -/
theorem hidden_entry (x0 x1 : Vec Ideal S5000x128 .f32) (x2 x3 : Vec Ideal S128x128 .f32) (x4 x5 x6 : Vec Ideal S1x128 .f32)
    (A X : FVec Ideal S100000x128 .f32) (U W : FVec Ideal S128x128 .f32) (b s bi : FVec Ideal S1x128 .f32)
    (p : Fin 5000) (n : Fin 128) (r : Fin 100000)
    (h0 : ∀ k, x0 (ix2 p k) = A (ix2 r k)) (h1 : ∀ k, x1 (ix2 p k) = X (ix2 r k))
    (h2 : ∀ k m, x2 (ix2 k m) = U (ix2 k m)) (h3 : ∀ k m, x3 (ix2 k m) = W (ix2 k m))
    (h4 : ∀ m, x4 (ix2 (0 : Fin 1) m) = b (ix2 (0 : Fin 1) m))
    (h5 : ∀ m, x5 (ix2 (0 : Fin 1) m) = s (ix2 (0 : Fin 1) m))
    (h6 : ∀ m, x6 (ix2 (0 : Fin 1) m) = bi (ix2 (0 : Fin 1) m)) :
    k0_pay1 (F := Ideal) x0 x1 x2 x3 x4 x5 x6 (ix2 p n)
      = hidden A X U W (row b (0 : Fin 1)) (row s (0 : Fin 1)) (row bi (0 : Fin 1)) (ix2 r n) := by
  have e0 : row x0 p = row A r := funext h0
  have e1 : row x1 p = row X r := funext h1
  have e2 : mat x2 = mat U := funext fun k => funext fun m => h2 k m
  have e3 : mat x3 = mat W := funext fun k => funext fun m => h3 k m
  have e4 : row x4 (0 : Fin 1) = row b (0 : Fin 1) := funext h4
  have e5 : row x5 (0 : Fin 1) = row s (0 : Fin 1) := funext h5
  have e6 : row x6 (0 : Fin 1) = row bi (0 : Fin 1) := funext h6
  rw [pay0_at, hidden_ix2, e0, e1, e2, e3, e4, e5, e6]

/-- What point t writes back is block t of the hidden layer of the whole arrays. -/
theorem flushed0_eq (A X : FVec Ideal S100000x128 .f32) (U W : FVec Ideal S128x128 .f32) (b s bi : FVec Ideal S1x128 .f32)
    (hA : V c main_v21 = A) (hX : V c main_arg0 = X) (hU : V c main_v28 = U) (hW : V c main_v29 = W)
    (hb : V c main_v30 = b) (hs : V c main_v31 = s) (hbi : V c main_v32 = bi) (t : Fin cfg0.N) :
    (dat0 (F := Ideal) V c).flushed 7 t
      = ((cfg0.win 7).blk t).view.read (Elt Ideal)
          (hidden A X U W (row b (0 : Fin 1)) (row s (0 : Fin 1)) (row bi (0 : Fin 1))) := by
  show (cfg0.win 7).cut (grid0.coords t) ((dat0 V c).after 7 t) = _
  rw [after0_7]
  unfold out0_7
  rw [View.canon_unit_zero zeros2]
  simp only [View.ld_unit_zero (S := S5000x128) zeros2, View.ld_unit_zero (S := S128x128) zeros2,
    View.ld_unit_zero (S := S1x128) zeros2]
  funext j
  obtain ⟨p, n, rfl⟩ : ∃ (p : Fin 5000) (n : Fin 128), j = ix2 p n := ⟨j 0, j 1, eq_ix2 j⟩
  have ht : t.val < 20 := lt_of_lt_of_eq t.isLt N_0
  have hr : 5000 * t.val + p.val < 100000 := by have := p.isLt; omega
  show k0_pay1 (F := Ideal) (iblk0 V c 0 t) (iblk0 V c 1 t) (iblk0 V c 2 t) (iblk0 V c 3 t) (iblk0 V c 4 t)
        (iblk0 V c 5 t) (iblk0 V c 6 t) (ix2 p n)
      = hidden A X U W (row b (0 : Fin 1)) (row s (0 : Fin 1)) (row bi (0 : Fin 1))
          (((cfg0.win 7).blk t).view.emb (ix2 p n))
  rw [emb0_7 t p n hr]
  exact hidden_entry (iblk0 V c 0 t) (iblk0 V c 1 t) (iblk0 V c 2 t) (iblk0 V c 3 t) (iblk0 V c 4 t)
    (iblk0 V c 5 t) (iblk0 V c 6 t) A X U W b s bi p n ⟨5000 * t.val + p.val, hr⟩
    (fun k => (blk0_0 V c t p k hr).trans (congrFun hA _))
    (fun k => (blk0_1 V c t p k hr).trans (congrFun hX _))
    (fun k m => (blk0_2 V c t k m).trans (congrFun hU _))
    (fun k m => (blk0_3 V c t k m).trans (congrFun hW _))
    (fun m => (blk0_4 V c t m).trans (congrFun hb _))
    (fun m => (blk0_5 V c t m).trans (congrFun hs _))
    (fun m => (blk0_6 V c t m).trans (congrFun hbi _))

/-- An index of the output array is in point t's block iff each coordinate is in the block's range on its axis. -/
theorem mem_blk (t : Fin cfg0.N) (i : S100000x128.Idx) :
    i ∈ ((cfg0.win 7).blk t).view.set
      ↔ ∀ a : Fin 2, win0_7.index t a * S5000x128.size a ≤ (i a).val
          ∧ (i a).val < win0_7.index t a * S5000x128.size a + S5000x128.size a := by
  show i ∈ ((View.whole main_v33).slice (win0_7.rect t)).set ↔ _
  rw [View.set_slice_whole, Rect.mem_set_unit]
  exact Iff.rfl

/-- The 20 blocks of 5000 rows tile the array: row r is in the block of point r / 5000. -/
theorem covered (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hq : (i 0).val / 5000 < cfg0.N := lt_of_lt_of_eq (by omega : (i 0).val / 5000 < 20) N_0.symm
  obtain ⟨-, -, -, -, -, -, -, -, -, -, -, -, -, -, e0, e1⟩ := idx0 ⟨(i 0).val / 5000, hq⟩
  refine ⟨⟨(i 0).val / 5000, hq⟩, flush0_7 _, ?_⟩
  rw [mem_blk]
  intro a
  match a with
  | ⟨0, _⟩ =>
    show win0_7.index ⟨(i 0).val / 5000, hq⟩ (0 : Fin 2) * 5000 ≤ (i 0).val
      ∧ (i 0).val < win0_7.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, hq⟩ (1 : Fin 2) * 128 ≤ (i 1).val
      ∧ (i 1).val < win0_7.index ⟨(i 0).val / 5000, hq⟩ (1 : Fin 2) * 128 + 128
    rw [e1]
    omega

end R0

/-- After the first region the output array is the hidden layer of the arrays the region found. -/
theorem region0_array (V : (c : Dev nD) → (b : Ref sig .tc) → Buf (Elt Ideal) ((c : Thread nD τ).loc b)) (c : Dev nD)
    (A X : FVec Ideal S100000x128 .f32) (U W : FVec Ideal S128x128 .f32) (b s bi : FVec Ideal S1x128 .f32)
    (hA : V c main_v21 = A) (hX : V c main_arg0 = X) (hU : V c main_v28 = U) (hW : V c main_v29 = W)
    (hb : V c main_v30 = b) (hs : V c main_v31 = s) (hbi : V c main_v32 = bi) :
    (Cert.KernelIdeal.Gen.dat0 (F := Ideal) V c).arrAt 7 cfg0.N
      = hidden A X U W (row b (0 : Fin 1)) (row s (0 : Fin 1)) (row bi (0 : Fin 1)) :=
  (Cert.KernelIdeal.Gen.dat0 (F := Ideal) V c).arrAt_eq_of_cover 7
    (hidden A X U W (row b (0 : Fin 1)) (row s (0 : Fin 1)) (row bi (0 : Fin 1)))
    (fun t _ => R0.flushed0_eq V c A X U W b s bi hA hX hU hW hb hs hbi t) R0.covered

end Cert.Sage2

end
-- ==== Proof.Region1.lean ====
/-
  The second layer's kernel region, read as one array.

  The region runs over a grid of 20 points. Point t takes rows 5000 t … 5000 t + 4999 of the two [100000, 128] row
  arrays (the neighbours' mean of the hidden layer, and the hidden layer), the two [128, 128] matrices and the
  one-row bias whole, and writes back rows 5000 t … 5000 t + 4999 of the result. Entry (p, n) of the block it writes is
      ((a · u + h · w) + b) (p, n) = layerSum (row a p) (row h p) u w b n,
  a function of row p of each block alone; row p of point t's block is row 5000 t + p of the whole array. So block t
  is block t of wholeOf A H U W b, and the 20 blocks tile the 100000 rows (the point covering row r is r / 5000):
  the array after the region is wholeOf A H U W b.
-/
import proofs.«171475_j5385888989319_1_alg».proof.Proof.Gen.KernelIdeal.Frame
import proofs.«171475_j5385888989319_1_alg».proof.Proof.Spec

noncomputable section

namespace Cert.Sage2

namespace R1

open Cert.KernelIdeal Cert.KernelIdeal.Gen Cert.DenseRows Cert.LibLayerSum Cert.LibBlockRows
open Idealize.ShloMosaic Idealize.ShloMosaic.TcCoe Idealize.ShloMosaic.ValueIdx Idealize.SL.Sem

/-- The stored block, entry by entry: entry (p, n) is the layer sum of row p of the two row blocks. The changes of
    float format and the casts to the same shape are the identity on the extended reals. -/
theorem pay_at (x0 x1 : Vec Ideal S5000x128 .f32) (x2 x3 : Vec Ideal S128x128 .f32)
    (x4 : Vec Ideal S1x128 .f32) (p : Fin 5000) (n : Fin 128) :
    k1_pay1 (F := Ideal) x0 x1 x2 x3 x4 (ix2 p n)
      = layerSum (row x0 p) (row x1 p) (mat x2) (mat x3) (row x4 (0 : Fin 1)) n := by
  unfold k1_pay1
  show row (addf (addf (matmul dot_S5000x128_S128x128_S5000x128_1_0_0_1_n_n none
                (truncf FTy.bf16 (shapeCast S5000x128 x0 shapeCasts_S5000x128_S5000x128) bitsLt_bf16_f32)
                (truncf FTy.bf16 (shapeCast S128x128 x2 shapeCasts_S128x128_S128x128) bitsLt_bf16_f32)
                (constant (F := Ideal) S5000x128 FTy.f32 0#32))
              (matmul dot_S5000x128_S128x128_S5000x128_1_0_0_1_n_n none
                (truncf FTy.bf16 (shapeCast S5000x128 x1 shapeCasts_S5000x128_S5000x128) bitsLt_bf16_f32)
                (truncf FTy.bf16 (shapeCast S128x128 x3 shapeCasts_S128x128_S128x128) bitsLt_bf16_f32)
                (constant (F := Ideal) S5000x128 FTy.f32 0#32)))
            (broadcastTo S5000x128 (shapeCast S1x128 x4 shapeCasts_S1x128_S1x128) broadcasts_S1x128_S5000x128)) p n = _
  rw [Cert.Sage.row_block_bias_last dot_S5000x128_S128x128_S5000x128_1_0_0_1_n_n rfl]
  simp only [shapeCast_self]
  rfl

theorem zeros2 : (![0, 0] : Fin 2 → Nat) = fun _ => 0 := funext fun a => by fin_cases a <;> rfl

/-- The index maps over the grid: the row-block windows sit at block (t, 0), the others at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- Entry (p, k) of the first row-block window's block at point t is entry (5000 t + p, k) of its array. -/
theorem blk_0 (t : Fin cfg1.N) (p : Fin 5000) (k : Fin 128) (h : 5000 * t.val + p.val < 100000) :
    (iblk1 (F := Ideal) V c 0 t : Vec Ideal S5000x128 .f32) (ix2 p k)
      = (V c main_v46 : S100000x128.Idx → EReal) (ix2 ⟨5000 * t.val + p.val, h⟩ k) := by
  obtain ⟨e0, e1, -⟩ := idx t
  show (V c main_v46 : S100000x128.Idx → EReal) (((cfg1.win 0).blk t).view.emb (ix2 p k)) = _
  refine congrArg (V c main_v46 : S100000x128.Idx → EReal) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The same for the second row-block window. -/
theorem blk_1 (t : Fin cfg1.N) (p : Fin 5000) (k : Fin 128) (h : 5000 * t.val + p.val < 100000) :
    (iblk1 (F := Ideal) V c 1 t : Vec Ideal S5000x128 .f32) (ix2 p k)
      = (V c main_v33 : S100000x128.Idx → EReal) (ix2 ⟨5000 * t.val + p.val, h⟩ k) := by
  obtain ⟨-, -, e0, e1, -⟩ := idx t
  show (V c main_v33 : S100000x128.Idx → EReal) (((cfg1.win 1).blk t).view.emb (ix2 p k)) = _
  refine congrArg (V c main_v33 : S100000x128.Idx → EReal) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The two weight matrices' windows hold the whole matrix at every point. -/
theorem blk_2 (t : Fin cfg1.N) (k n : Fin 128) :
    (iblk1 (F := Ideal) V c 2 t : Vec Ideal S128x128 .f32) (ix2 k n) = (V c main_v48 : S128x128.Idx → EReal) (ix2 k n) := by
  obtain ⟨-, -, -, -, e0, e1, -⟩ := idx t
  show (V c main_v48 : S128x128.Idx → EReal) (((cfg1.win 2).blk t).view.emb (ix2 k n)) = _
  refine congrArg (V c main_v48 : S128x128.Idx → EReal) (funext fun a => Fin.ext ?_)
  match a with
  | ⟨0, _⟩ => show win1_2.index t (0 : Fin 2) * 128 + 1 * k.val = k.val; rw [e0]; omega
  | ⟨1, _⟩ => show win1_2.index t (1 : Fin 2) * 128 + 1 * n.val = n.val; rw [e1]; omega

theorem blk_3 (t : Fin cfg1.N) (k n : Fin 128) :
    (iblk1 (F := Ideal) V c 3 t : Vec Ideal S128x128 .f32) (ix2 k n) = (V c main_v50 : S128x128.Idx → EReal) (ix2 k n) := by
  obtain ⟨-, -, -, -, -, -, e0, e1, -⟩ := idx t
  show (V c main_v50 : S128x128.Idx → EReal) (((cfg1.win 3).blk t).view.emb (ix2 k n)) = _
  refine congrArg (V c main_v50 : S128x128.Idx → EReal) (funext fun a => Fin.ext ?_)
  match a with
  | ⟨0, _⟩ => show win1_3.index t (0 : Fin 2) * 128 + 1 * k.val = k.val; rw [e0]; omega
  | ⟨1, _⟩ => show win1_3.index t (1 : Fin 2) * 128 + 1 * n.val = n.val; rw [e1]; omega

/-- The one-row bias window holds its whole row at every point. -/
theorem blk_4 (t : Fin cfg1.N) (n : Fin 128) :
    (iblk1 (F := Ideal) V c 4 t : Vec Ideal S1x128 .f32) (ix2 (0 : Fin 1) n)
      = (V c main_v52 : S1x128.Idx → EReal) (ix2 (0 : Fin 1) n) := by
  obtain ⟨-, -, -, -, -, -, -, -, e0, e1, -⟩ := idx t
  show (V c main_v52 : S1x128.Idx → EReal) (((cfg1.win 4).blk t).view.emb (ix2 (0 : Fin 1) n)) = _
  refine congrArg (V c main_v52 : S1x128.Idx → EReal) (funext fun a => Fin.ext ?_)
  match a with
  | ⟨0, _⟩ => show win1_4.index t (0 : Fin 2) * 1 + 1 * 0 = 0; rw [e0]
  | ⟨1, _⟩ => show win1_4.index t (1 : Fin 2) * 128 + 1 * n.val = n.val; rw [e1]; omega

omit V c in
/-- Entry (p, n) of the output window's block at point t sits at (5000 t + p, n) of the array. -/
theorem emb_5 (t : Fin cfg1.N) (p : Fin 5000) (n : Fin 128) (h : 5000 * t.val + p.val < 100000) :
    (((cfg1.win 5).blk t).view.emb (ix2 p n) : S100000x128.Idx) = ix2 ⟨5000 * t.val + p.val, h⟩ n := by
  obtain ⟨-, -, -, -, -, -, -, -, -, -, e0, e1⟩ := idx t
  refine funext fun a => Fin.ext ?_
  match a with
  | ⟨0, _⟩ => show win1_5.index t (0 : Fin 2) * 5000 + 1 * p.val = 5000 * t.val + p.val; rw [e0]; omega
  | ⟨1, _⟩ => show win1_5.index t (1 : Fin 2) * 128 + 1 * n.val = n.val; rw [e1]; omega

omit V c in
/-- A block whose loaded rows and matrices are those of the whole arrays stores the whole layer's entries. -/
theorem whole_entry (x0 x1 : Vec Ideal S5000x128 .f32) (x2 x3 : Vec Ideal S128x128 .f32) (x4 : Vec Ideal S1x128 .f32)
    (A H : FVec Ideal S100000x128 .f32) (U W : FVec Ideal S128x128 .f32) (b : FVec Ideal S1x128 .f32)
    (p : Fin 5000) (n : Fin 128) (r : Fin 100000)
    (h0 : ∀ k, x0 (ix2 p k) = A (ix2 r k)) (h1 : ∀ k, x1 (ix2 p k) = H (ix2 r k))
    (h2 : ∀ k m, x2 (ix2 k m) = U (ix2 k m)) (h3 : ∀ k m, x3 (ix2 k m) = W (ix2 k m))
    (h4 : ∀ m, x4 (ix2 (0 : Fin 1) m) = b (ix2 (0 : Fin 1) m)) :
    k1_pay1 (F := Ideal) x0 x1 x2 x3 x4 (ix2 p n) = wholeOf A H U W (row b (0 : Fin 1)) (ix2 r n) := by
  have e0 : row x0 p = row A r := funext h0
  have e1 : row x1 p = row H r := funext h1
  have e2 : mat x2 = mat U := funext fun k => funext fun m => h2 k m
  have e3 : mat x3 = mat W := funext fun k => funext fun m => h3 k m
  have e4 : row x4 (0 : Fin 1) = row b (0 : Fin 1) := funext h4
  rw [pay_at, wholeOf_ix2, e0, e1, e2, e3, e4]

/-- What point t writes back is block t of the layer of the whole arrays. -/
theorem flushed_eq (A H : FVec Ideal S100000x128 .f32) (U W : FVec Ideal S128x128 .f32) (b : FVec Ideal S1x128 .f32)
    (hA : V c main_v46 = A) (hH : V c main_v33 = H) (hU : V c main_v48 = U) (hW : V c main_v50 = W)
    (hb : V c main_v52 = b) (t : Fin cfg1.N) :
    (dat1 (F := Ideal) V c).flushed 5 t
      = ((cfg1.win 5).blk t).view.read (Elt Ideal) (wholeOf A H U W (row b (0 : Fin 1))) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2,
    View.ld_unit_zero (S := S1x128) zeros2]
  funext j
  obtain ⟨p, n, rfl⟩ : ∃ (p : Fin 5000) (n : Fin 128), j = ix2 p n := ⟨j 0, j 1, eq_ix2 j⟩
  have ht : t.val < 20 := lt_of_lt_of_eq t.isLt N_1
  have hr : 5000 * t.val + p.val < 100000 := by have := p.isLt; omega
  show k1_pay1 (F := Ideal) (iblk1 V c 0 t) (iblk1 V c 1 t) (iblk1 V c 2 t) (iblk1 V c 3 t) (iblk1 V c 4 t) (ix2 p n)
      = wholeOf A H U W (row b (0 : Fin 1)) (((cfg1.win 5).blk t).view.emb (ix2 p n))
  rw [emb_5 t p n hr]
  exact whole_entry (iblk1 V c 0 t) (iblk1 V c 1 t) (iblk1 V c 2 t) (iblk1 V c 3 t) (iblk1 V c 4 t)
    A H U W b p n ⟨5000 * t.val + p.val, hr⟩
    (fun k => (blk_0 V c t p k hr).trans (congrFun hA _))
    (fun k => (blk_1 V c t p k hr).trans (congrFun hH _))
    (fun k m => (blk_2 V c t k m).trans (congrFun hU _))
    (fun k m => (blk_3 V c t k m).trans (congrFun hW _))
    (fun m => (blk_4 V c t m).trans (congrFun hb _))

omit V c in
/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v53).slice (win1_5.rect t)).set ↔ _
  rw [View.set_slice_whole, Rect.mem_set_unit]
  exact Iff.rfl

omit V c in
/-- The 20 blocks tile the array: row r is in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  refine ⟨⟨(i 0).val / 5000, hN⟩, flush1_5 _, ?_⟩
  rw [mem_blk]
  obtain ⟨-, -, -, -, -, -, -, -, -, -, e0, e1⟩ := idx ⟨(i 0).val / 5000, hN⟩
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    rw [e1]
    omega

end R1

open Cert.KernelIdeal Cert.KernelIdeal.Gen Cert.DenseRows Cert.LibLayerSum
open Idealize.ShloMosaic Idealize.ShloMosaic.TcCoe Idealize.ShloMosaic.ValueIdx Idealize.SL.Sem

/-- The array the second layer's region leaves: the layer sum of the whole arrays, row by row. -/
theorem region1_array (V : (c : Dev nD) → (b : Ref sig .tc) → Buf (Elt Ideal) ((c : Thread nD τ).loc b)) (c : Dev nD)
    (A H : FVec Ideal S100000x128 .f32) (U W : FVec Ideal S128x128 .f32) (b : FVec Ideal S1x128 .f32)
    (hA : V c main_v46 = A) (hH : V c main_v33 = H) (hU : V c main_v48 = U) (hW : V c main_v50 = W)
    (hb : V c main_v52 = b) :
    (Cert.KernelIdeal.Gen.dat1 (F := Ideal) V c).arrAt 5 cfg1.N = wholeOf A H U W (row b (0 : Fin 1)) :=
  (dat1 (F := Ideal) V c).arrAt_eq_of_cover 5 (wholeOf A H U W (row b (0 : Fin 1)))
    (fun t _ => R1.flushed_eq V c A H U W b hA hH hU hW hb t) R1.cover

end Cert.Sage2

end
-- ==== Proof.KernelValue.lean ====
/-
  The kernel program's result buffer as the specification's function of the argument arrays.

  Region 0's output array is the hidden layer of all the nodes (its blocks of rows tile the array and each is the
  layer's formula on the rows it holds), region 1's output array is the second layer on its 128 padded columns, taken of
  region 0's output and of the neighbour means of it that the host stretch between the regions computes, and the last
  host operation keeps the first 64 columns.
-/
import proofs.«171475_j5385888989319_1_alg».proof.Proof.KernelHost
import proofs.«171475_j5385888989319_1_alg».proof.Proof.Region0
import proofs.«171475_j5385888989319_1_alg».proof.Proof.Region1

set_option maxRecDepth 16384

noncomputable section

namespace Cert.Sage2

open Idealize.ShloMosaic Idealize.ShloMosaic.TcCoe Idealize.SL.Sem Idealize.ShloMosaic.StableHlo Idealize.ShloMosaic.ValueIdx
open Cert.KernelIdeal Cert.KernelIdeal.Gen Cert.DenseRows Cert.LibLayerSum

/-! ## Region 0's output, region 1's output, the result -/

variable (m : (ℓ : Loc nD τ sig) → Buf (Elt Ideal) ℓ) (ρ : Dev nD → PrngReg)

/-- Region 0 leaves the hidden layer of all the nodes in its output array. -/
theorem W4_v33 (c : Dev nD) : W4 (F := Ideal) m ρ c (Proc.devRef .tc main_v33)
    = hiddenK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (W4_arr m ρ c 7).trans (region0_array (V3 m ρ) c _ _ _ _ _ _ _ (W3_v21 m ρ c) (W3_arg m ρ c main_arg0 (.inl rfl))
    (W3_v28 m ρ c) (W3_v29 m ρ c) (W3_v30 m ρ c) (W3_v31 m ρ c) (W3_v32 m ρ c))

/-- Region 1 leaves the second layer, on its 128 padded columns, in its output array. -/
theorem W11_v53 (c : Dev nD) : W11 (F := Ideal) m ρ c (Proc.devRef .tc main_v53)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W11_arr m ρ c 5).trans ((region1_array (V10 m ρ) c _ _ _ _ _ (W10_v46 m ρ c) (W10_v33 m ρ c)
    (W10_v48 m ρ c) (W10_v50 m ρ c) (W10_v52 m ρ c)).trans ?_)
  rw [W4_v33]
  rfl

/-- The result buffer ends at the specification's function of the argument arrays. -/
theorem kernel_value (c : Dev nD) : W12 (F := Ideal) m ρ c (Proc.devRef .tc main_v54)
    = kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  rw [W12_v54, W11_v53]
  rfl

end Cert.Sage2

end
-- ==== Proof.BnConsts.lean ====
/-
  The float constants of the normalised two-layer graph convolution as the extended reals their f32 words denote:
  the variance's ε (a positive real) and +∞ (against which the precondition compares absolute values).  They are
  unfolded here once; the other modules read them from here.
-/
import Idealize.ShloMosaic.PureOps.Ideal

noncomputable section

namespace Cert.Sage2

open Idealize.ShloMosaic

/-- The word 0x3727C5AC (sign 0, exponent 110, fraction 2606508) denotes the positive real
    (2^23 + 2606508) · 2^(110 − 127 − 23) = 10995116 · 2^(−40), about 1e-5. -/
theorem eps_real : ∃ e : ℝ, 0 < e ∧ Ideal.ofBits .f32 0x3727C5AC#32 = ((e : ℝ) : EReal) := by
  refine ⟨(10995116 : ℝ) * (2 : ℝ) ^ (-40 : ℤ), by positivity, ?_⟩
  simp [Ideal.ofBits, Ideal.ieee, -EReal.coe_mul]

/-- The word 0x7F800000 (sign 0, exponent all ones, fraction 0) denotes +∞. -/
theorem ofBits_inf : Ideal.ofBits .f32 0x7F800000#32 = (⊤ : EReal) := by
  simp [Ideal.ofBits, Ideal.ieee]

/-- The all-zero word denotes 0. -/
theorem ofBits_zero : Ideal.ofBits .f32 0x00000000#32 = (0 : EReal) := by
  simp [Ideal.ofBits, Ideal.ieee]

end Cert.Sage2

end
-- ==== Proof.PreFacts.lean ====
/-
  The precondition read back: it is the conjunction of twelve "all elements" tests, |a| < +∞ for each of the eleven
  float arguments and σ² ≥ 0 for the variance vector.  Of these, the four per-column vectors of the normalisation
  are made of reals, and the variance's reals are nonnegative.

  An extended real x with max x (−x) < ⊤ is neither ⊥ (−⊥ = ⊤) nor ⊤, so it is a real; and a real whose coercion is
  ≥ 0 among the extended reals is ≥ 0.
-/
import proofs.«171475_j5385888989319_1_alg».proof.Pre_finite_inputs
import proofs.«171475_j5385888989319_1_alg».proof.Proof.Gen.Pre_finite_inputs
import proofs.«171475_j5385888989319_1_alg».proof.Proof.BnConsts
import Idealize.ShloMosaic.Lib.ReduceAll
import Idealize.ShloMosaic.Lib.ValueIdx
import Idealize.ShloMosaic.PureOps.Ideal

noncomputable section

namespace Cert.Sage2

open Idealize.ShloMosaic Idealize.ShloMosaic.ValueIdx
open Cert.Pre_finite_inputs Cert.Pre_finite_inputs.Facts

/-- The rank-0 shape has one index. -/
instance subsingleton_S_Idx : Subsingleton Cert.Pre_finite_inputs.S_.Idx := ⟨fun a b => funext fun d => d.elim0⟩

/-- A one-bit word made from a Boolean is 1 exactly when the Boolean is true. -/
theorem ofBool_eq_one_iff {b : Bool} : BitVec.ofBool b = 1#1 ↔ b = true := by cases b <;> decide

/-- |x| < +∞ on the extended reals, as the comparison prints it: then x is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_inf, ofBool_eq_one_iff, decide_eq_true_eq] at h'
  induction x using EReal.rec with
  | bot => exact absurd h' (by simp)
  | coe r => exact ⟨r, rfl⟩
  | top => exact absurd h' (by simp)

/-- x ≥ 0.0 on the extended reals, as the comparison prints it, for x a real: the real is ≥ 0. -/
theorem nonneg_of_oge_zero (r : ℝ)
    (h : FloatOps.cmpf (F := Ideal) (φ := .f32) .oge ((r : EReal)) (FloatOps.ofBits (F := Ideal) .f32 0x00000000#32) = 1#1) :
    0 ≤ r := by
  have h' : BitVec.ofBool (decide (Ideal.ofBits .f32 0x00000000#32 ≤ (r : EReal))) = 1#1 := h
  rw [ofBits_zero, ofBool_eq_one_iff, decide_eq_true_eq] at h'
  exact EReal.coe_nonneg.mp h'

variable [Cert.Pre_finite_inputs.Facts]

/-- One "all |a| < +∞" test of a vector of 128 entries gives that every entry is a real. -/
theorem finite_S128 (a : FVec Ideal S128 .f32)
    (h : Host.reduce IntOp.andi
        (cmpf .olt (Host.absf a) (broadcastInDim S128 ![] bcast_S_S128 (constant (F := Ideal) S_ .f32 0x7F800000#32)))
        (constantI S_ 1 1#1) reducesTo_S128_S_d0 h_S_ ix0 = 1#1) (i : S128.Idx) :
    ∃ x : ℝ, a i = (x : EReal) :=
  real_of_abs_lt_inf (a i) (Host.reduce_andi_all _ _ _ _ _ h i)

/-- The precondition gives: γ, β, μ and σ² are made of reals, and σ² ≥ 0. -/
theorem pre_facts (a0 : FVec Ideal S100000x128 .f32) (a1 : IVec S2x1600000 32) (a2 : FVec Ideal S128x128 .f32)
    (a3 : FVec Ideal S128 .f32) (a4 : FVec Ideal S128x128 .f32) (a5 a6 a7 a8 : FVec Ideal S128 .f32)
    (a9 : FVec Ideal S64x128 .f32) (a10 : FVec Ideal S64 .f32) (a11 : FVec Ideal S64x128 .f32)
    (h : Cert.Pre_finite_inputs.fn (F := Ideal) a0 a1 a2 a3 a4 a5 a6 a7 a8 a9 a10 a11 = fun _ => 1#1) :
    (∀ i, ∃ x : ℝ, a5 i = (x : EReal)) ∧ (∀ i, ∃ x : ℝ, a6 i = (x : EReal)) ∧ (∀ i, ∃ x : ℝ, a7 i = (x : EReal))
      ∧ (∀ i, ∃ x : ℝ, a8 i = (x : EReal) ∧ 0 ≤ x) := by
  have e := congrFun h ix0
  dsimp only [Cert.Pre_finite_inputs.fn, Cert.Pre_finite_inputs.fn_part1, Cert.Pre_finite_inputs.fn_part2,
    Cert.Pre_finite_inputs.fn_part3, andi] at e
  simp only [IntOp.andi_eq_one] at e
  -- the conjunction nests to the left; the last conjunct is the variance's sign test
  obtain ⟨⟨⟨⟨⟨⟨⟨⟨-, h5⟩, h6⟩, h7⟩, h8⟩, -⟩, -⟩, -⟩, hge⟩ := e
  refine ⟨finite_S128 a5 h5, finite_S128 a6 h6, finite_S128 a7 h7, fun i => ?_⟩
  obtain ⟨x, hx⟩ := finite_S128 a8 h8 i
  have hi := Host.reduce_andi_all _ _ _ _ _ hge i
  have hi' : FloatOps.cmpf (F := Ideal) (φ := .f32) .oge (a8 i) (FloatOps.ofBits (F := Ideal) .f32 0x00000000#32) = 1#1 := hi
  rw [hx] at hi'
  exact ⟨x, hx, nonneg_of_oge_zero x hi'⟩

end Cert.Sage2

end
-- ==== Proof.BnAlgebra.lean ====
/-
  The normalisation's algebra on the extended reals.

  With the column's γ, β, μ real and σ² a real ≥ 0, the number ρ = (σ² + ε)^(-1/2) is a real (ε > 0, so σ² + ε > 0),
  and for EVERY extended real L, infinite ones included,
      ((L − μ) · ρ) · γ + β = L · (γ · ρ) + (β − μ · (γ · ρ)).
  For L real this is the field identity; for L = ±∞ both sides are the infinity of the sign of ±(γ · ρ), or β
  when γ · ρ = 0.
-/
import proofs.«171475_j5385888989319_1_alg».proof.Proof.Spec
import proofs.«171475_j5385888989319_1_alg».proof.Proof.BnConsts

noncomputable section

namespace Cert.Sage2

open Idealize.ShloMosaic Idealize.ShloMosaic.ValueIdx
open Cert.KernelIdeal Cert.KernelIdeal.Facts₀

/-- The identity on scalars: L any extended real, the four parameters real. -/
theorem bn_scalar (L : EReal) (g b m r : ℝ) :
    ((L - (m:EReal)) * (r:EReal)) * (g:EReal) + (b:EReal)
      = L * ((g:EReal) * (r:EReal)) + ((b:EReal) - (m:EReal) * ((g:EReal) * (r:EReal))) := by
  induction L using EReal.rec with
  | bot =>
    -- ⊥ − m = ⊥, and ⊥ · c is ⊤, 0 or ⊥ as c = γ·ρ is negative, zero or positive
    rw [EReal.bot_sub, mul_assoc, mul_comm (r : EReal) (g : EReal), ← EReal.coe_mul, ← EReal.coe_mul, ← EReal.coe_sub]
    rcases lt_trichotomy (g * r) 0 with hc | hc | hc
    · rw [EReal.bot_mul_coe_of_neg hc, EReal.top_add_coe, EReal.top_add_coe]
    · rw [hc]; simp
    · rw [EReal.bot_mul_coe_of_pos hc, EReal.bot_add, EReal.bot_add]
  | coe x =>
    norm_cast
    ring
  | top =>
    -- ⊤ − m = ⊤, and ⊤ · c is ⊥, 0 or ⊤ as c = γ·ρ is negative, zero or positive
    rw [EReal.top_sub_coe, mul_assoc, mul_comm (r : EReal) (g : EReal), ← EReal.coe_mul, ← EReal.coe_mul, ← EReal.coe_sub]
    rcases lt_trichotomy (g * r) 0 with hc | hc | hc
    · rw [EReal.top_mul_coe_of_neg hc, EReal.bot_add, EReal.bot_add]
    · rw [hc]; simp
    · rw [EReal.top_mul_coe_of_pos hc, EReal.top_add_coe, EReal.top_add_coe]

variable [Cert.KernelIdeal.Facts]

/-- Where σ² is a real ≥ 0, (σ² + ε)^(-1/2) is the real (√(σ² + ε))⁻¹. -/
theorem rstd_real (var : FVec Ideal S128 .f32) (n : Fin 128)
    (hvar : ∃ x : ℝ, var (ix1 n) = (x : EReal) ∧ 0 ≤ x) :
    ∃ r : ℝ, rstd var (ix1 n) = (r : EReal) := by
  obtain ⟨x, hx, hx0⟩ := hvar
  obtain ⟨e, he0, he⟩ := eps_real
  have hpos : 0 < x + e := by linarith
  refine ⟨(Real.sqrt (x + e))⁻¹, ?_⟩
  simp only [rstd, Host.rsqrt, addf, broadcast, broadcastInDim, constant, Ideal.hostUnary_rsqrt_def, Ideal.addf_def,
    Ideal.ofBits_def]
  rw [hx, he, ← EReal.coe_add, Ideal.rsqrt_coe, if_neg (not_lt.mpr hpos.le), if_neg hpos.ne']

/-- The normalised entry ((L − μ) · ρ) · γ + β is L · scale + shift, for every extended real L. -/
theorem bn_entry (L : EReal) (g be mu var : FVec Ideal S128 .f32) (n : Fin 128)
    (hg : ∃ x : ℝ, g (ix1 n) = (x : EReal)) (hbe : ∃ x : ℝ, be (ix1 n) = (x : EReal))
    (hmu : ∃ x : ℝ, mu (ix1 n) = (x : EReal))
    (hvar : ∃ x : ℝ, var (ix1 n) = (x : EReal) ∧ 0 ≤ x) :
    ((L - mu (ix1 n)) * rstd var (ix1 n)) * g (ix1 n) + be (ix1 n)
      = L * bnScale g var (ix1 n) + bnShift g be mu var (ix1 n) := by
  obtain ⟨gx, hgx⟩ := hg
  obtain ⟨bx, hbx⟩ := hbe
  obtain ⟨mx, hmx⟩ := hmu
  obtain ⟨r, hr⟩ := rstd_real var n hvar
  have hsc : bnScale g var (ix1 n) = (gx : EReal) * (r : EReal) := by
    show g (ix1 n) * rstd var (ix1 n) = _
    rw [hgx, hr]
  have hsh : bnShift g be mu var (ix1 n) = (bx : EReal) - (mx : EReal) * ((gx : EReal) * (r : EReal)) := by
    show be (ix1 n) - mu (ix1 n) * bnScale g var (ix1 n) = _
    rw [hbx, hmx, hsc]
  rw [hsc, hsh, hgx, hbx, hmx, hr]
  exact bn_scalar L gx bx mx r

end Cert.Sage2

end
-- ==== Proof.RefValue.lean ====
/-
  The reference program's result is the specification's function of its arguments.

  The reference computes, on whole arrays,
      H   = max (((nbMean x · U₁ + b₁ + x · W₁) − μ) · ρ · γ + β, 0),      ρ = (σ² + ε)^(-1/2),
      out = nbMean H · U₂ + b₂ + H · W₂,
  the per-column vectors spread over the rows. The mean over in-neighbours is spelt by the same gather, scatter-add
  and division as the specification's `nbMean`, and is never opened. Entry by entry the normalisation
  ((L − μ) · ρ) · γ + β is L · (γ · ρ) + (β − μ · (γ · ρ)), the specification's scale and shift; and the
  specification's second layer, computed on matrices padded with 64 zero columns and then cut back to the first 64
  columns, reads below column 64 exactly the unpadded matrices and bias.
-/
import proofs.«171475_j5385888989319_1_alg».proof.Proof.Gen.ReferenceIdeal.Run
import proofs.«171475_j5385888989319_1_alg».proof.Proof.Spec
import proofs.«171475_j5385888989319_1_alg».proof.Proof.BnAlgebra
import Idealize.ShloMosaic.Lib.KernelVsHost
import Idealize.ShloMosaic.Lib.Pipeline.Value

noncomputable section

namespace Cert.Sage2

open Idealize.ShloMosaic Idealize.ShloMosaic.ValueIdx Cert.DenseRows Cert.LibLayerSum

variable [Cert.KernelIdeal.Facts]

section Padding
open Cert.KernelIdeal Cert.KernelIdeal.Facts₀

/-! ## The second layer's padding: 64 zero columns that the final cut removes -/

/-- The padded weight matrix read at a column below 64 is the transposed matrix there. -/
theorem mat_padW (w : FVec Ideal S64x128 .f32) (k : Fin 128) (n : Fin 64) :
    mat (padW w) k ⟨n.val, Nat.lt_of_lt_of_le n.isLt (by decide)⟩
      = mat (transpose S128x64 [1, 0] w transposes_S64x128_S128x64_1_0) k n :=
  pad_apply_of_inside ![0, 0] ![0, 64] ![0, 0] (transpose S128x64 [1, 0] w transposes_S64x128_S128x64_1_0) _
    pads_S128x64_S128x128_000_0640 h_S_ (ix2 k (⟨n.val, Nat.lt_of_lt_of_le n.isLt (by decide)⟩ : Fin 128)) (ix2 k n)
    (fun a => match a with
      | ⟨0, _⟩ => by show k.val = 0 + k.val * (0 + 1); omega
      | ⟨1, _⟩ => by show n.val = 0 + n.val * (0 + 1); omega)

/-- The padded bias row read at a column below 64 is the bias there. -/
theorem row_padB (b2 : FVec Ideal S64 .f32) (n : Fin 64) :
    row (padB b2) (0 : Fin 1) ⟨n.val, Nat.lt_of_lt_of_le n.isLt (by decide)⟩ = vec b2 n :=
  (pad_apply_of_inside ![0, 0] ![0, 64] ![0, 0] (shapeCast S1x64 b2 shapeCasts_S64_S1x64) _
    pads_S1x64_S1x128_000_0640 h_S_ (ix2 (0 : Fin 1) (⟨n.val, Nat.lt_of_lt_of_le n.isLt (by decide)⟩ : Fin 128))
    (ix2 (0 : Fin 1) n)
    (fun a => match a with
      | ⟨0, _⟩ => by show (0 : Fin 1).val = 0 + (0 : Fin 1).val * (0 + 1); omega
      | ⟨1, _⟩ => by show n.val = 0 + n.val * (0 + 1); omega)).trans
    (shapeCast_a_1a_apply b2 shapeCasts_S64_S1x64 (0 : Fin 1) n)

/-- The second layer on the padded matrices, cut back to its first 64 columns, is the second layer on the
    unpadded ones: each of its entries is a sum over the 128 hidden columns of products with one column of a
    weight matrix, plus one bias entry, and below column 64 the padded matrices and bias are the unpadded ones. -/
theorem slice_whole_pad (A H : FVec Ideal S100000x128 .f32) (w2l w2r : FVec Ideal S64x128 .f32) (b2 : FVec Ideal S64 .f32) :
    extractStridedSlice S100000x64 ![0, 0] (wholeOf A H (padW w2l) (padW w2r) (row (padB b2) (0 : Fin 1)))
        slices_S100000x128_S100000x64_0_0
      = wholeOf A H (transpose S128x64 [1, 0] w2l transposes_S64x128_S128x64_1_0)
          (transpose S128x64 [1, 0] w2r transposes_S64x128_S128x64_1_0) (vec b2) := by
  funext i
  obtain ⟨r, n, rfl⟩ : ∃ (r : Fin 100000) (n : Fin 64), i = ix2 r n := ⟨i 0, i 1, eq_ix2 i⟩
  refine (extractStridedSlice_apply ![0, 0] _ slices_S100000x128_S100000x64_0_0 (ix2 r n)
    (ix2 r (⟨n.val, Nat.lt_of_lt_of_le n.isLt (by decide)⟩ : Fin 128))
    (fun a => match a with
      | ⟨0, _⟩ => by show r.val = 0 + r.val; omega
      | ⟨1, _⟩ => by show n.val = 0 + n.val; omega)).trans ?_
  rw [wholeOf_ix2, wholeOf_ix2]
  show ((∑ k : Fin 128, row A r k * mat (padW w2l) k ⟨n.val, _⟩) + row (padB b2) (0 : Fin 1) ⟨n.val, _⟩)
        + ∑ k : Fin 128, row H r k * mat (padW w2r) k ⟨n.val, _⟩
      = ((∑ k : Fin 128, row A r k * mat (transpose S128x64 [1, 0] w2l transposes_S64x128_S128x64_1_0) k n) + vec b2 n)
        + ∑ k : Fin 128, row H r k * mat (transpose S128x64 [1, 0] w2r transposes_S64x128_S128x64_1_0) k n
  rw [row_padB b2 n]
  congr 1
  · congr 1
    exact Finset.sum_congr rfl fun k _ => congrArg (row A r k * ·) (mat_padW w2l k n)
  · exact Finset.sum_congr rfl fun k _ => congrArg (row H r k * ·) (mat_padW w2r k n)

end Padding

section Reference
open Cert.ReferenceIdeal Cert.ReferenceIdeal.Gen

/-! ## The reference's operations, as functions of arrays -/

/-- The reference's mean over in-neighbours: the rows of `f` gathered at the edges' sources (a negative source
    counted from the end), added up at the edges' destinations, and divided by the in-degree clamped below at one. -/
def refMean (ei : IVec S2x1600000 32) (f : FVec Ideal S100000x128 .f32) : FVec Ideal S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 f (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S100000x1_S100000x128_0_1 (broadcastInDim S100000x1 ![0] bcast_S100000_S100000x1_0 (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32))))))

/-- It is the specification's mean: the same operations on the same operands. -/
theorem refMean_eq (ei : IVec S2x1600000 32) (f : FVec Ideal S100000x128 .f32) : refMean ei f = nbMean ei f := rfl

/-- The reference's first layer before the normalisation: `(nbMean x · U₁ + b₁) + x · W₁`. -/
def refLin (x : FVec Ideal S100000x128 .f32) (ei : IVec S2x1600000 32) (w1l : FVec Ideal S128x128 .f32)
    (b1 : FVec Ideal S128 .f32) (w1r : FVec Ideal S128x128 .f32) : FVec Ideal S100000x128 .f32 :=
  addf (addf (Host.dotGeneral dot_S100000x128_S128x128_S100000x128_1_0_0_1_n_n none (refMean ei x) (transpose S128x128 [1, 0] w1l transposes_S128x128_S128x128_1_0)) (broadcastInDim S100000x128 ![0, 1] bcast_S1x128_S100000x128_0_1 (broadcastInDim S1x128 ![1] bcast_S128_S1x128_1 b1))) (Host.dotGeneral dot_S100000x128_S128x128_S100000x128_1_0_0_1_n_n none x (transpose S128x128 [1, 0] w1r transposes_S128x128_S128x128_1_0))

/-- The reference's hidden layer: the first layer normalised column by column and rectified. -/
def refHidden (x : FVec Ideal S100000x128 .f32) (ei : IVec S2x1600000 32) (w1l : FVec Ideal S128x128 .f32)
    (b1 : FVec Ideal S128 .f32) (w1r : FVec Ideal S128x128 .f32) (g be mu var : FVec Ideal S128 .f32) :
    FVec Ideal S100000x128 .f32 :=
  maximumf (addf (mulf (mulf (subf (refLin x ei w1l b1 w1r) (broadcastInDim S100000x128 ![0, 1] bcast_S1x128_S100000x128_0_1 (broadcastInDim S1x128 ![1] bcast_S128_S1x128_1 mu))) (broadcastInDim S100000x128 ![0, 1] bcast_S1x128_S100000x128_0_1 (broadcastInDim S1x128 ![1] bcast_S128_S1x128_1 (Host.rsqrt (addf var (broadcastInDim S128 ![] bcast_S_S128 (constant S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))) (broadcastInDim S100000x128 ![] bcast_S_S100000x128 (constant S_ .f32 0x00000000#32))

/-- The reference's result: `(nbMean H · U₂ + b₂) + H · W₂` on 64 columns. -/
def refOut (x : FVec Ideal S100000x128 .f32) (ei : IVec S2x1600000 32) (w1l : FVec Ideal S128x128 .f32)
    (b1 : FVec Ideal S128 .f32) (w1r : FVec Ideal S128x128 .f32) (g be mu var : FVec Ideal S128 .f32)
    (w2l : FVec Ideal S64x128 .f32) (b2 : FVec Ideal S64 .f32) (w2r : FVec Ideal S64x128 .f32) :
    FVec Ideal S100000x64 .f32 :=
  addf (addf (Host.dotGeneral dot_S100000x128_S128x64_S100000x64_1_0_0_1_n_n none (refMean ei (refHidden x ei w1l b1 w1r g be mu var)) (transpose S128x64 [1, 0] w2l transposes_S64x128_S128x64_1_0)) (broadcastInDim S100000x64 ![0, 1] bcast_S1x64_S100000x64_0_1 (broadcastInDim S1x64 ![1] bcast_S64_S1x64_1 b2))) (Host.dotGeneral dot_S100000x128_S128x64_S100000x64_1_0_0_1_n_n none (refHidden x ei w1l b1 w1r g be mu var) (transpose S128x64 [1, 0] w2r transposes_S64x128_S128x64_1_0))

/-- The reference's two contractions are the plain ones: the left operand's last axis with the right operand's first. -/
theorem d128_plain : dot_S100000x128_S128x128_S100000x128_1_0_0_1_n_n = DotDims.plain 100000 128 128 := rfl
theorem d64_plain : dot_S100000x128_S128x64_S100000x64_1_0_0_1_n_n = DotDims.plain 100000 128 64 := rfl

/-- The first layer before the normalisation is the row-by-row sum of two dense layers. -/
theorem refLin_eq (x : FVec Ideal S100000x128 .f32) (ei : IVec S2x1600000 32) (w1l : FVec Ideal S128x128 .f32)
    (b1 : FVec Ideal S128 .f32) (w1r : FVec Ideal S128x128 .f32) :
    refLin x ei w1l b1 w1r
      = wholeOf (nbMean ei x) x (transpose S128x128 [1, 0] w1l transposes_S128x128_S128x128_1_0) (transpose S128x128 [1, 0] w1r transposes_S128x128_S128x128_1_0) (vec b1) := by
  unfold refLin
  rw [refMean_eq]
  exact host_whole (R := 100000) (K := 128) (N := 128) dot_S100000x128_S128x128_S100000x128_1_0_0_1_n_n d128_plain none none (nbMean ei x) _ x _ b1 _ _

/-- The reference's hidden layer is the specification's: at row r and column n both are the maximum with zero of
    the first layer's entry L normalised, and ((L − μ n) · ρ n) · γ n + β n = L · s n + t n with the
    specification's scale s and shift t, the column's parameters being real and its variance not negative. -/
theorem refHidden_eq (x : FVec Ideal S100000x128 .f32) (ei : IVec S2x1600000 32) (w1l : FVec Ideal S128x128 .f32)
    (b1 : FVec Ideal S128 .f32) (w1r : FVec Ideal S128x128 .f32) (g be mu var : FVec Ideal S128 .f32)
    (hg : ∀ n : Fin 128, ∃ v : ℝ, g (ix1 n) = (v : EReal)) (hbe : ∀ n : Fin 128, ∃ v : ℝ, be (ix1 n) = (v : EReal))
    (hmu : ∀ n : Fin 128, ∃ v : ℝ, mu (ix1 n) = (v : EReal))
    (hvar : ∀ n : Fin 128, ∃ v : ℝ, var (ix1 n) = (v : EReal) ∧ 0 ≤ v) :
    refHidden x ei w1l b1 w1r g be mu var = hiddenK x ei w1l b1 w1r g be mu var := by
  unfold refHidden
  rw [refLin_eq]
  funext i
  obtain ⟨r, n, rfl⟩ : ∃ (r : Fin 100000) (n : Fin 128), i = ix2 r n := ⟨i 0, i 1, eq_ix2 i⟩
  rw [maximumf_apply, addf_apply, mulf_apply, mulf_apply, subf_apply, broadcastTwice_apply, broadcastTwice_apply,
    broadcastTwice_apply, broadcastTwice_apply, splat_apply, wholeOf_ix2, hiddenK, hidden_ix2, row_cast_vec, row_cast_vec,
    row_cast_vec]
  exact congrArg (fun t => max t zeroE)
    (bn_entry (layerSum (row (nbMean ei x) r) (row x r) (mat (transpose S128x128 [1, 0] w1l transposes_S128x128_S128x128_1_0)) (mat (transpose S128x128 [1, 0] w1r transposes_S128x128_S128x128_1_0)) (vec b1) n)
      g be mu var n (hg n) (hbe n) (hmu n) (hvar n))

end Reference

section Result
open Cert.KernelIdeal Cert.KernelIdeal.Facts₀

/-- The reference's result is the specification's. -/
theorem refOut_eq (x : FVec Ideal S100000x128 .f32) (ei : IVec S2x1600000 32) (w1l : FVec Ideal S128x128 .f32)
    (b1 : FVec Ideal S128 .f32) (w1r : FVec Ideal S128x128 .f32) (g be mu var : FVec Ideal S128 .f32)
    (w2l : FVec Ideal S64x128 .f32) (b2 : FVec Ideal S64 .f32) (w2r : FVec Ideal S64x128 .f32)
    (hg : ∀ n : Fin 128, ∃ v : ℝ, g (ix1 n) = (v : EReal)) (hbe : ∀ n : Fin 128, ∃ v : ℝ, be (ix1 n) = (v : EReal))
    (hmu : ∀ n : Fin 128, ∃ v : ℝ, mu (ix1 n) = (v : EReal))
    (hvar : ∀ n : Fin 128, ∃ v : ℝ, var (ix1 n) = (v : EReal) ∧ 0 ≤ v) :
    refOut x ei w1l b1 w1r g be mu var w2l b2 w2r = kOut x ei w1l b1 w1r g be mu var w2l b2 w2r := by
  unfold refOut
  rw [refMean_eq, refHidden_eq x ei w1l b1 w1r g be mu var hg hbe hmu hvar]
  refine (host_whole (R := 100000) (K := 128) (N := 64) Cert.ReferenceIdeal.dot_S100000x128_S128x64_S100000x64_1_0_0_1_n_n d64_plain none none
    (nbMean ei (hiddenK x ei w1l b1 w1r g be mu var)) _ (hiddenK x ei w1l b1 w1r g be mu var) _ b2 _ _).trans ?_
  exact (slice_whole_pad _ _ w2l w2r b2).symm

end Result

/-- The reference program's result term is the specification's function of the argument arrays, the
    normalisation's four parameter vectors being real and the variances not negative. -/
theorem ref_eq [Cert.ReferenceIdeal.Facts]
    (m : (ℓ : Loc Cert.ReferenceIdeal.nD Cert.ReferenceIdeal.τ Cert.ReferenceIdeal.sig) → Buf (Elt Ideal) ℓ)
    (c : Dev Cert.ReferenceIdeal.nD)
    (hg : ∀ i, ∃ x : ℝ, m ((c.tc : Thread _ _).loc Cert.ReferenceIdeal.main_arg5) i = (x : EReal))
    (hbe : ∀ i, ∃ x : ℝ, m ((c.tc : Thread _ _).loc Cert.ReferenceIdeal.main_arg6) i = (x : EReal))
    (hmu : ∀ i, ∃ x : ℝ, m ((c.tc : Thread _ _).loc Cert.ReferenceIdeal.main_arg7) i = (x : EReal))
    (hvar : ∀ i, ∃ x : ℝ, m ((c.tc : Thread _ _).loc Cert.ReferenceIdeal.main_arg8) i = (x : EReal) ∧ 0 ≤ x) :
    Cert.ReferenceIdeal.Value.res_out0 (F := Ideal) m c
      = kOut (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3))
          (m ((c.tc : Thread _ _).loc Cert.ReferenceIdeal.main_arg4)) (m ((c.tc : Thread _ _).loc Cert.ReferenceIdeal.main_arg5))
          (m ((c.tc : Thread _ _).loc Cert.ReferenceIdeal.main_arg6)) (m ((c.tc : Thread _ _).loc Cert.ReferenceIdeal.main_arg7))
          (m ((c.tc : Thread _ _).loc Cert.ReferenceIdeal.main_arg8)) (m ((c.tc : Thread _ _).loc Cert.ReferenceIdeal.main_arg9))
          (m ((c.tc : Thread _ _).loc Cert.ReferenceIdeal.main_arg10)) (m ((c.tc : Thread _ _).loc Cert.ReferenceIdeal.main_arg11)) := by
  have h : Cert.ReferenceIdeal.Value.res_main_v71 (F := Ideal) m c
      = refOut (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3))
          (m ((c.tc : Thread _ _).loc Cert.ReferenceIdeal.main_arg4)) (m ((c.tc : Thread _ _).loc Cert.ReferenceIdeal.main_arg5))
          (m ((c.tc : Thread _ _).loc Cert.ReferenceIdeal.main_arg6)) (m ((c.tc : Thread _ _).loc Cert.ReferenceIdeal.main_arg7))
          (m ((c.tc : Thread _ _).loc Cert.ReferenceIdeal.main_arg8)) (m ((c.tc : Thread _ _).loc Cert.ReferenceIdeal.main_arg9))
          (m ((c.tc : Thread _ _).loc Cert.ReferenceIdeal.main_arg10)) (m ((c.tc : Thread _ _).loc Cert.ReferenceIdeal.main_arg11)) := rfl
  exact h.trans (refOut_eq _ _ _ _ _ _ _ _ _ _ _ _ (fun n => hg (ix1 n)) (fun n => hbe (ix1 n)) (fun n => hmu (ix1 n))
    (fun n => hvar (ix1 n)))

end Cert.Sage2

end
-- ==== Proof.lean ====
/-
  The certificate of a two-layer mean-aggregating graph convolution (gather the source rows of the edges, add them
  up at the destinations, divide by the in-degree clamped below at one; a dense layer of the mean and of the node's
  own row; a per-column normalisation and a rectifier after the first layer) computed by two row-tiled kernels with
  host operations around them, against the same network written with whole-array operations.

  On the extended reals the two programs differ in three ways only. The dense layers are matrix products of blocks
  of 5000 rows against products of all 100000 rows: a row of the product depends on that row of the left operand
  alone. The summands of a layer are grouped (A·U + X·W) + b in one and (A·U + b) + X·W in the other: addition is
  commutative and associative. The normalisation is folded into one scale s = γ·(σ² + ε)^(-1/2) and one shift
  t = β − μ·s per column in one program and spelt ((L − μ)·(σ² + ε)^(-1/2))·γ + β in the other: equal for every
  extended real L as soon as γ, β, μ are real and σ² ≥ 0, so that (σ² + ε)^(-1/2) is a real too — which is what
  the precondition provides. The second layer's 64 output columns are computed on 128 columns, the extra ones zero,
  and cut back. The gathers, the scatter-additions and the division by the degree are the same operations in both
  programs and are never opened.
-/
import proofs.«171475_j5385888989319_1_alg».proof.Defs
import proofs.«171475_j5385888989319_1_alg».proof.Proof.Gen.Kernel
import proofs.«171475_j5385888989319_1_alg».proof.Proof.Gen.Kernel.Frame
import proofs.«171475_j5385888989319_1_alg».proof.Proof.Gen.KernelIdeal
import proofs.«171475_j5385888989319_1_alg».proof.Proof.Gen.KernelIdeal.Frame
import proofs.«171475_j5385888989319_1_alg».proof.Proof.Gen.ReferenceIdeal
import proofs.«171475_j5385888989319_1_alg».proof.Proof.Gen.ReferenceIdeal.Run
import proofs.«171475_j5385888989319_1_alg».proof.Proof.Gen.Pre_finite_inputs
import proofs.«171475_j5385888989319_1_alg».proof.Proof.Spec
import proofs.«171475_j5385888989319_1_alg».proof.Proof.KernelRun
import proofs.«171475_j5385888989319_1_alg».proof.Proof.KernelValue
import proofs.«171475_j5385888989319_1_alg».proof.Proof.PreFacts
import proofs.«171475_j5385888989319_1_alg».proof.Proof.RefValue

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- Both programs end with the result at the specification's function `kOut` of the argument arrays: the kernel
    program by its run through the two regions, the reference by its run read back, where the normalisation's
    parameters are real and the variance is not negative — which the precondition says. -/
theorem algebraic : Cert.algebraic_KernelIdeal_ReferenceIdeal := by
  intro m ρ m' ρ' hpre hagree
  refine ⟨fun c => Cert.Sage2.kOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)), ?_, ?_⟩
  · exact (θ_run (Cert.KernelIdeal.defs (F := Ideal)) _ _).mono
      (fun r h c => ⟨(h c).1.trans (Cert.Sage2.kernel_value m ρ c), (h c).2⟩)
      (Cert.KernelIdeal.Named.run_named (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    obtain ⟨hg, hbe, hmu, hvar⟩ := Cert.Sage2.pre_facts _ _ _ _ _ _ _ _ _ _ _ _ (hpre c)
    refine (Cert.Sage2.ref_eq m' c (by rw [h5]; exact hg) (by rw [h6]; exact hbe) (by rw [h7]; exact hmu)
      (by rw [h8]; exact hvar)).trans ?_
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
